-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x32x128 : Shape := ⟨3, ![128, 32, 128]⟩
abbrev S128x128x128 : Shape := ⟨3, ![128, 128, 128]⟩
abbrev S_ : Shape := ⟨0, ![]⟩
abbrev S128 : Shape := ⟨1, ![128]⟩

class Facts : Prop where
  bcast_S_S128x32x128 : S_.BroadcastsInDim S128x32x128 (![] : Fin 0 → Fin S128x32x128.rank)
  reducesTo_S128x32x128_S_d0_1_2 : S128x32x128.ReducesTo [0, 1, 2] S_
  h_S_ : 0 < S_.numel
  bcast_S_S128x128x128 : S_.BroadcastsInDim S128x128x128 (![] : Fin 0 → Fin S128x128x128.rank)
  reducesTo_S128x128x128_S_d0_1_2 : S128x128x128.ReducesTo [0, 1, 2] S_
  reducesTo_S_S_d : S_.ReducesTo [] S_

variable [Facts]

def fn {F : FTy → Type} [FloatOps F] (main_arg0 : FVec F S128x32x128 .f32) (main_arg1 : FVec F S128x128x128 .f32) (main_arg2 : FVec F S_ .f32) (main_arg3 : IVec S128 32) : IVec S_ 1 :=
  let main_v0 : FVec F S128x32x128 .f32 := Host.absf main_arg0
  let main_cst : FVec F S_ .f32 := constant S_ .f32 0x7F800000#32
  let main_v1 : FVec F S128x32x128 .f32 := broadcastInDim S128x32x128 ![] bcast_S_S128x32x128 main_cst
  let main_v2 : IVec S128x32x128 1 := cmpf .olt main_v0 main_v1
  let main_c : IVec S_ 1 := constantI S_ 1 1#1
  let main_v3 : IVec S_ 1 := (fun x v => Host.reduce IntOp.andi x v reducesTo_S128x32x128_S_d0_1_2 h_S_) main_v2 main_c
  let main_v4 : FVec F S128x128x128 .f32 := Host.absf main_arg1
  let main_cst_0 : FVec F S_ .f32 := constant S_ .f32 0x7F800000#32
  let main_v5 : FVec F S128x128x128 .f32 := broadcastInDim S128x128x128 ![] bcast_S_S128x128x128 main_cst_0
  let main_v6 : IVec S128x128x128 1 := cmpf .olt main_v4 main_v5
  let main_c_1 : IVec S_ 1 := constantI S_ 1 1#1
  let main_v7 : IVec S_ 1 := (fun x v => Host.reduce IntOp.andi x v reducesTo_S128x128x128_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S128x32x128 : Shape := ⟨3, ![128, 32, 128]⟩
abbrev S128x128x128 : Shape := ⟨3, ![128, 128, 128]⟩
abbrev S_ : Shape := ⟨0, ![]⟩
abbrev S128 : Shape := ⟨1, ![128]⟩
abbrev S128x32 : Shape := ⟨2, ![128, 32]⟩
abbrev S128x32x1 : Shape := ⟨3, ![128, 32, 1]⟩
abbrev S128x128 : Shape := ⟨2, ![128, 128]⟩
abbrev S16x128x128 : Shape := ⟨3, ![16, 128, 128]⟩
abbrev S16x128 : Shape := ⟨2, ![16, 128]⟩
abbrev S16x128x1 : Shape := ⟨3, ![16, 128, 1]⟩
abbrev S2048x128 : Shape := ⟨2, ![2048, 128]⟩
abbrev S32x32x128 : Shape := ⟨3, ![32, 32, 128]⟩
abbrev S1024x128 : Shape := ⟨2, ![1024, 128]⟩
abbrev S1024x2048 : Shape := ⟨2, ![1024, 2048]⟩
abbrev S32x32 : Shape := ⟨2, ![32, 32]⟩
abbrev S32x32x1 : Shape := ⟨3, ![32, 32, 1]⟩
abbrev S32x1 : Shape := ⟨2, ![32, 1]⟩
abbrev S32 : Shape := ⟨1, ![32]⟩
abbrev S1x32 : Shape := ⟨2, ![1, 32]⟩
abbrev S128x1 : Shape := ⟨2, ![128, 1]⟩
abbrev S128x2 : Shape := ⟨2, ![128, 2]⟩

abbrev nBuf : Space → Nat
  | .hbm => 59
  | .vmem => 5
  | .smem => 0
  | _ => 0

abbrev bufTy : (tb : Table) → Fin (tcTables nBuf tb) → BufTy
  | .hbm, ⟨0, _⟩ => ⟨S128x32x128, .f32⟩
  | .hbm, ⟨1, _⟩ => ⟨S128x128x128, .f32⟩
  | .hbm, ⟨2, _⟩ => ⟨S_, .f32⟩
  | .hbm, ⟨3, _⟩ => ⟨S128, .i32⟩
  | .hbm, ⟨4, _⟩ => ⟨S128x32x128, .f32⟩
  | .hbm, ⟨5, _⟩ => ⟨S_, .f32⟩
  | .hbm, ⟨6, _⟩ => ⟨S128x32, .f32⟩
  | .hbm, ⟨7, _⟩ => ⟨S128x32x1, .f32⟩
  | .hbm, ⟨8, _⟩ => ⟨S128x32x1, .f32⟩
  | .hbm, ⟨9, _⟩ => ⟨S_, .f32⟩
  | .hbm, ⟨10, _⟩ => ⟨S128x32x1, .f32⟩
  | .hbm, ⟨11, _⟩ => ⟨S128x32x1, .f32⟩
  | .hbm, ⟨12, _⟩ => ⟨S128x32x128, .f32⟩
  | .hbm, ⟨13, _⟩ => ⟨S128x32x128, .f32⟩
  | .hbm, ⟨14, _⟩ => ⟨S128x32x128, .bf16⟩
  | .hbm, ⟨15, _⟩ => ⟨S128x128, .f32⟩
  | .hbm, ⟨16, _⟩ => ⟨S128x128, .f32⟩
  | .hbm, ⟨17, _⟩ => ⟨S_, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128x1, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S_, .f32⟩
  | .hbm, ⟨30, _⟩ => ⟨S128, .f32⟩
  | .hbm, ⟨31, _⟩ => ⟨S128x1, .f32⟩
  | .hbm, ⟨32, _⟩ => ⟨S128x1, .f32⟩
  | .hbm, ⟨33, _⟩ => ⟨S128x128, .f32⟩
  | .hbm, ⟨34, _⟩ => ⟨S128x128, .f32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S128, .i32⟩
  | .hbm, ⟨48, _⟩ => ⟨S128, .i32⟩
  | .hbm, ⟨49, _⟩ => ⟨S128, .i32⟩
  | .hbm, ⟨50, _⟩ => ⟨S128x1, .i32⟩
  | .hbm, ⟨51, _⟩ => ⟨S128x1, .i32⟩
  | .hbm, ⟨52, _⟩ => ⟨S128x2, .i32⟩
  | .hbm, ⟨53, _⟩ => ⟨S128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S128x32x128, .bf16⟩
  | .local _ .vmem, ⟨1, _⟩ => ⟨S16x128x128, .f32⟩
  | .local _ .vmem, ⟨2, _⟩ => ⟨S16x128x128, .f32⟩
  | .local _ .vmem, ⟨3, _⟩ => ⟨S16x128, .f32⟩
  | .local _ .vmem, ⟨4, _⟩ => ⟨S16x128, .f32⟩
  | _, _ => ⟨S128x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_1 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x32x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S128x32x128_S128x32_d2 : S128x32x128.ReducesTo [2] S128x32
  h_S_ : 0 < S_.numel
  bcast_S128x32_S128x32x1_0_1 : S128x32.BroadcastsInDim S128x32x1 (![0, 1] : Fin 2 → Fin S128x32x1.rank)
  bcast_S_S128x32x1 : S_.BroadcastsInDim S128x32x1 (![] : Fin 0 → Fin S128x32x1.rank)
  bcast_S128x32x1_S128x32x128_0_1_2 : S128x32x1.BroadcastsInDim S128x32x128 (![0, 1, 2] : Fin 3 → Fin S128x32x128.rank)
  bitsLt_bf16_f32 : FTy.bits .bf16 < FTy.bits .f32
  inb_S16x128x128_S16x128x128_0_0_0 : ∀ a, (![0, 0, 0] : Fin 3 → Nat) a + S16x128x128.size a ≤ S16x128x128.size a
  h_S16x128x128 : 0 < S16x128x128.numel
  reduces_S16x128x128_S16x128 : S16x128x128.Reduces [2] S16x128
  shapeCasts_S16x128_S16x128x1 : S16x128.ShapeCasts S16x128x1
  broadcasts_S16x128x1_S16x128x128 : S16x128x1.Broadcasts S16x128x128
  shapeCasts_S16x128x128_S2048x128 : S16x128x128.ShapeCasts S2048x128
  inb_S128x32x128_S32x32x128_0_0_0 : ∀ a, (![0, 0, 0] : Fin 3 → Nat) a + S32x32x128.size a ≤ S128x32x128.size a
  h_S32x32x128 : 0 < S32x32x128.numel
  shapeCasts_S32x32x128_S32x32x128 : S32x32x128.ShapeCasts S32x32x128
  shapeCasts_S32x32x128_S1024x128 : S32x32x128.ShapeCasts S1024x128
  slices_S1024x2048_o0_0_S1024x128 : S1024x2048.Slices ![0, 0] S1024x128
  shapeCasts_S1024x128_S32x32x128 : S1024x128.ShapeCasts S32x32x128
  reduces_S32x32x128_S32x32 : S32x32x128.Reduces [2] S32x32
  shapeCasts_S32x32_S32x32x1 : S32x32.ShapeCasts S32x32x1
  reduces_S32x32x1_S32x1 : S32x32x1.Reduces [1] S32x1
  shapeCasts_S32x1_S32 : S32x1.ShapeCasts S32
  inb_S16x128_S1x32_0_0 : ∀ a, (![0, 0] : Fin 2 → Nat) a + S1x32.size a ≤ S16x128.size a
  h_S1x32 : 0 < S1x32.numel
  shapeCasts_S1x32_S32 : S1x32.ShapeCasts S32
  shapeCasts_S32_S1x32 : S32.ShapeCasts S1x32
  slices_S1024x2048_o0_128_S1024x128 : S1024x2048.Slices ![0, 128] S1024x128
  inb_S16x128_S1x32_1_0 : ∀ a, (![1, 0] : Fin 2 → Nat) a + S1x32.size a ≤ S16x128.size a
  slices_S1024x2048_o0_256_S1024x128 : S1024x2048.Slices ![0, 256] S1024x128
  inb_S16x128_S1x32_2_0 : ∀ a, (![2, 0] : Fin 2 → Nat) a + S1x32.size a ≤ S16x128.size a
  slices_S1024x2048_o0_384_S1024x128 : S1024x2048.Slices ![0, 384] S1024x128
  inb_S16x128_S1x32_3_0 : ∀ a, (![3, 0] : Fin 2 → Nat) a + S1x32.size a ≤ S16x128.size a
  slices_S1024x2048_o0_512_S1024x128 : S1024x2048.Slices ![0, 512] S1024x128
  inb_S16x128_S1x32_4_0 : ∀ a, (![4, 0] : Fin 2 → Nat) a + S1x32.size a ≤ S16x128.size a
  slices_S1024x2048_o0_640_S1024x128 : S1024x2048.Slices ![0, 640] S1024x128
  inb_S16x128_S1x32_5_0 : ∀ a, (![5, 0] : Fin 2 → Nat) a + S1x32.size a ≤ S16x128.size a
  slices_S1024x2048_o0_768_S1024x128 : S1024x2048.Slices ![0, 768] S1024x128
  inb_S16x128_S1x32_6_0 : ∀ a, (![6, 0] : Fin 2 → Nat) a + S1x32.size a ≤ S16x128.size a
  slices_S1024x2048_o0_896_S1024x128 : S1024x2048.Slices ![0, 896] S1024x128
  inb_S16x128_S1x32_7_0 : ∀ a, (![7, 0] : Fin 2 → Nat) a + S1x32.size a ≤ S16x128.size a
  slices_S1024x2048_o0_1024_S1024x128 : S1024x2048.Slices ![0, 1024] S1024x128
  inb_S16x128_S1x32_8_0 : ∀ a, (![8, 0] : Fin 2 → Nat) a + S1x32.size a ≤ S16x128.size a
  slices_S1024x2048_o0_1152_S1024x128 : S1024x2048.Slices ![0, 1152] S1024x128
  inb_S16x128_S1x32_9_0 : ∀ a, (![9, 0] : Fin 2 → Nat) a + S1x32.size a ≤ S16x128.size a
  slices_S1024x2048_o0_1280_S1024x128 : S1024x2048.Slices ![0, 1280] S1024x128
  inb_S16x128_S1x32_10_0 : ∀ a, (![10, 0] : Fin 2 → Nat) a + S1x32.size a ≤ S16x128.size a
  slices_S1024x2048_o0_1408_S1024x128 : S1024x2048.Slices ![0, 1408] S1024x128
  inb_S16x128_S1x32_11_0 : ∀ a, (![11, 0] : Fin 2 → Nat) a + S1x32.size a ≤ S16x128.size a
  slices_S1024x2048_o0_1536_S1024x128 : S1024x2048.Slices ![0, 1536] S1024x128
  inb_S16x128_S1x32_12_0 : ∀ a, (![12, 0] : Fin 2 → Nat) a + S1x32.size a ≤ S16x128.size a
  slices_S1024x2048_o0_1664_S1024x128 : S1024x2048.Slices ![0, 1664] S1024x128
  inb_S16x128_S1x32_13_0 : ∀ a, (![13, 0] : Fin 2 → Nat) a + S1x32.size a ≤ S16x128.size a
  slices_S1024x2048_o0_1792_S1024x128 : S1024x2048.Slices ![0, 1792] S1024x128
  inb_S16x128_S1x32_14_0 : ∀ a, (![14, 0] : Fin 2 → Nat) a + S1x32.size a ≤ S16x128.size a
  slices_S1024x2048_o0_1920_S1024x128 : S1024x2048.Slices ![0, 1920] S1024x128
  inb_S16x128_S1x32_15_0 : ∀ a, (![15, 0] : Fin 2 → Nat) a + S1x32.size a ≤ S16x128.size a
  inb_S128x32x128_S32x32x128_32_0_0 : ∀ a, (![32, 0, 0] : Fin 3 → Nat) a + S32x32x128.size a ≤ S128x32x128.size a
  inb_S16x128_S1x32_0_32 : ∀ a, (![0, 32] : Fin 2 → Nat) a + S1x32.size a ≤ S16x128.size a
  inb_S16x128_S1x32_1_32 : ∀ a, (![1, 32] : Fin 2 → Nat) a + S1x32.size a ≤ S16x128.size a
  inb_S16x128_S1x32_2_32 : ∀ a, (![2, 32] : Fin 2 → Nat) a + S1x32.size a ≤ S16x128.size a
  inb_S16x128_S1x32_3_32 : ∀ a, (![3, 32] : Fin 2 → Nat) a + S1x32.size a ≤ S16x128.size a
  inb_S16x128_S1x32_4_32 : ∀ a, (![4, 32] : Fin 2 → Nat) a + S1x32.size a ≤ S16x128.size a
  inb_S16x128_S1x32_5_32 : ∀ a, (![5, 32] : Fin 2 → Nat) a + S1x32.size a ≤ S16x128.size a
  inb_S16x128_S1x32_6_32 : ∀ a, (![6, 32] : Fin 2 → Nat) a + S1x32.size a ≤ S16x128.size a
  inb_S16x128_S1x32_7_32 : ∀ a, (![7, 32] : Fin 2 → Nat) a + S1x32.size a ≤ S16x128.size a
  inb_S16x128_S1x32_8_32 : ∀ a, (![8, 32] : Fin 2 → Nat) a + S1x32.size a ≤ S16x128.size a
  inb_S16x128_S1x32_9_32 : ∀ a, (![9, 32] : Fin 2 → Nat) a + S1x32.size a ≤ S16x128.size a
  inb_S16x128_S1x32_10_32 : ∀ a, (![10, 32] : Fin 2 → Nat) a + S1x32.size a ≤ S16x128.size a
  inb_S16x128_S1x32_11_32 : ∀ a, (![11, 32] : Fin 2 → Nat) a + S1x32.size a ≤ S16x128.size a
  inb_S16x128_S1x32_12_32 : ∀ a, (![12, 32] : Fin 2 → Nat) a + S1x32.size a ≤ S16x128.size a
  inb_S16x128_S1x32_13_32 : ∀ a, (![13, 32] : Fin 2 → Nat) a + S1x32.size a ≤ S16x128.size a
  inb_S16x128_S1x32_14_32 : ∀ a, (![14, 32] : Fin 2 → Nat) a + S1x32.size a ≤ S16x128.size a
  inb_S16x128_S1x32_15_32 : ∀ a, (![15, 32] : Fin 2 → Nat) a + S1x32.size a ≤ S16x128.size a
  inb_S128x32x128_S32x32x128_64_0_0 : ∀ a, (![64, 0, 0] : Fin 3 → Nat) a + S32x32x128.size a ≤ S128x32x128.size a
  inb_S16x128_S1x32_0_64 : ∀ a, (![0, 64] : Fin 2 → Nat) a + S1x32.size a ≤ S16x128.size a
  inb_S16x128_S1x32_1_64 : ∀ a, (![1, 64] : Fin 2 → Nat) a + S1x32.size a ≤ S16x128.size a
  inb_S16x128_S1x32_2_64 : ∀ a, (![2, 64] : Fin 2 → Nat) a + S1x32.size a ≤ S16x128.size a
  inb_S16x128_S1x32_3_64 : ∀ a, (![3, 64] : Fin 2 → Nat) a + S1x32.size a ≤ S16x128.size a
  inb_S16x128_S1x32_4_64 : ∀ a, (![4, 64] : Fin 2 → Nat) a + S1x32.size a ≤ S16x128.size a
  inb_S16x128_S1x32_5_64 : ∀ a, (![5, 64] : Fin 2 → Nat) a + S1x32.size a ≤ S16x128.size a
  inb_S16x128_S1x32_6_64 : ∀ a, (![6, 64] : Fin 2 → Nat) a + S1x32.size a ≤ S16x128.size a
  inb_S16x128_S1x32_7_64 : ∀ a, (![7, 64] : Fin 2 → Nat) a + S1x32.size a ≤ S16x128.size a
  inb_S16x128_S1x32_8_64 : ∀ a, (![8, 64] : Fin 2 → Nat) a + S1x32.size a ≤ S16x128.size a
  inb_S16x128_S1x32_9_64 : ∀ a, (![9, 64] : Fin 2 → Nat) a + S1x32.size a ≤ S16x128.size a
  inb_S16x128_S1x32_10_64 : ∀ a, (![10, 64] : Fin 2 → Nat) a + S1x32.size a ≤ S16x128.size a
  inb_S16x128_S1x32_11_64 : ∀ a, (![11, 64] : Fin 2 → Nat) a + S1x32.size a ≤ S16x128.size a
  inb_S16x128_S1x32_12_64 : ∀ a, (![12, 64] : Fin 2 → Nat) a + S1x32.size a ≤ S16x128.size a
  inb_S16x128_S1x32_13_64 : ∀ a, (![13, 64] : Fin 2 → Nat) a + S1x32.size a ≤ S16x128.size a
  inb_S16x128_S1x32_14_64 : ∀ a, (![14, 64] : Fin 2 → Nat) a + S1x32.size a ≤ S16x128.size a
  inb_S16x128_S1x32_15_64 : ∀ a, (![15, 64] : Fin 2 → Nat) a + S1x32.size a ≤ S16x128.size a
  inb_S128x32x128_S32x32x128_96_0_0 : ∀ a, (![96, 0, 0] : Fin 3 → Nat) a + S32x32x128.size a ≤ S128x32x128.size a
  inb_S16x128_S1x32_0_96 : ∀ a, (![0, 96] : Fin 2 → Nat) a + S1x32.size a ≤ S16x128.size a
  inb_S16x128_S1x32_1_96 : ∀ a, (![1, 96] : Fin 2 → Nat) a + S1x32.size a ≤ S16x128.size a
  inb_S16x128_S1x32_2_96 : ∀ a, (![2, 96] : Fin 2 → Nat) a + S1x32.size a ≤ S16x128.size a
  inb_S16x128_S1x32_3_96 : ∀ a, (![3, 96] : Fin 2 → Nat) a + S1x32.size a ≤ S16x128.size a
  inb_S16x128_S1x32_4_96 : ∀ a, (![4, 96] : Fin 2 → Nat) a + S1x32.size a ≤ S16x128.size a
  inb_S16x128_S1x32_5_96 : ∀ a, (![5, 96] : Fin 2 → Nat) a + S1x32.size a ≤ S16x128.size a
  inb_S16x128_S1x32_6_96 : ∀ a, (![6, 96] : Fin 2 → Nat) a + S1x32.size a ≤ S16x128.size a
  inb_S16x128_S1x32_7_96 : ∀ a, (![7, 96] : Fin 2 → Nat) a + S1x32.size a ≤ S16x128.size a
  inb_S16x128_S1x32_8_96 : ∀ a, (![8, 96] : Fin 2 → Nat) a + S1x32.size a ≤ S16x128.size a
  inb_S16x128_S1x32_9_96 : ∀ a, (![9, 96] : Fin 2 → Nat) a + S1x32.size a ≤ S16x128.size a
  inb_S16x128_S1x32_10_96 : ∀ a, (![10, 96] : Fin 2 → Nat) a + S1x32.size a ≤ S16x128.size a
  inb_S16x128_S1x32_11_96 : ∀ a, (![11, 96] : Fin 2 → Nat) a + S1x32.size a ≤ S16x128.size a
  inb_S16x128_S1x32_12_96 : ∀ a, (![12, 96] : Fin 2 → Nat) a + S1x32.size a ≤ S16x128.size a
  inb_S16x128_S1x32_13_96 : ∀ a, (![13, 96] : Fin 2 → Nat) a + S1x32.size a ≤ S16x128.size a
  inb_S16x128_S1x32_14_96 : ∀ a, (![14, 96] : Fin 2 → Nat) a + S1x32.size a ≤ S16x128.size a
  inb_S16x128_S1x32_15_96 : ∀ a, (![15, 96] : Fin 2 → Nat) a + S1x32.size a ≤ S16x128.size a
  transposes_S128x128_S128x128_1_0 : S128x128.Transposes [1, 0] S128x128
  bcast_S_S128x128 : S_.BroadcastsInDim S128x128 (![] : Fin 0 → Fin S128x128.rank)
  reducesTo_S128x128_S128_d1 : S128x128.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  concatenates_S128x1_S128x1_S128x2_d1 : Shape.Concatenates [S128x1, S128x1] S128x2 1
  reducesTo_S128_S_d0 : S128.ReducesTo [0] S_
  dot_S1024x128_S2048x128_S1024x2048_1_1_0_0_n_n_wf : DotDims.WF S1024x128 S2048x128 S1024x2048 [1] [1] [0] [0] [] []
  gather_S128x128_S128x2_S128_n_01_n_n_01_1_11_wf : GatherDims.WF S128x128 S128x2 S128 [] [0, 1] [] [0, 1] [] 1 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x32x128.size a ≤ S128x32x128.size a
  hwx0_0 : ∀ i : grid0.Coords, EltTy.bits .bf16 = 32 ∨ (Rect.block (s := S128x32x128) S128x32x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S128x128x128.size a
  hwx0_1 : ∀ i : grid0.Coords, EltTy.bits .f32 = 32 ∨ (Rect.block (s := S128x128x128) S16x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S128x128.size a
  hwx0_2 : ∀ i : grid0.Coords, EltTy.bits .f32 = 32 ∨ (Rect.block (s := S128x128) S16x128.size (cc0_transform_2 i) (hinb0_2 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def gather_S128x128_S128x2_S128_n_01_n_n_01_1_11 : GatherDims S128x128 S128x2 S128 where
  offsetDims := []
  collapsedSliceDims := [0, 1]
  operandBatchingDims := []
  startIndicesBatchingDims := []
  startIndexMap := [0, 1]
  indexVectorDim := 1
  sliceSizes := ![1, 1]
  wf := gather_S128x128_S128x2_S128_n_01_n_n_01_1_11_wf

abbrev win0_0 : Pipeline.Window sig grid0 :=
  Pipeline.Window.ofSpec (Memref.whole main_v5) S128x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x32x128 : Shape := ⟨3, ![128, 32, 128]⟩
abbrev S128x128x128 : Shape := ⟨3, ![128, 128, 128]⟩
abbrev S_ : Shape := ⟨0, ![]⟩
abbrev S128 : Shape := ⟨1, ![128]⟩
abbrev S128x32 : Shape := ⟨2, ![128, 32]⟩
abbrev S128x32x1 : Shape := ⟨3, ![128, 32, 1]⟩
abbrev S128x128 : Shape := ⟨2, ![128, 128]⟩
abbrev S128x128x1 : Shape := ⟨3, ![128, 128, 1]⟩
abbrev S128x128x128x32 : Shape := ⟨4, ![128, 128, 128, 32]⟩
abbrev S128x128x32x128 : Shape := ⟨4, ![128, 128, 32, 128]⟩
abbrev S128x128x32 : Shape := ⟨3, ![128, 128, 32]⟩
abbrev S128x1 : Shape := ⟨2, ![128, 1]⟩
abbrev S128x2 : Shape := ⟨2, ![128, 2]⟩

abbrev nBuf : Space → Nat
  | .hbm => 72
  | .vmem => 0
  | .smem => 0
  | _ => 0

abbrev bufTy : (tb : Table) → Fin (tcTables nBuf tb) → BufTy
  | .hbm, ⟨0, _⟩ => ⟨S128x32x128, .f32⟩
  | .hbm, ⟨1, _⟩ => ⟨S128x128x128, .f32⟩
  | .hbm, ⟨2, _⟩ => ⟨S_, .f32⟩
  | .hbm, ⟨3, _⟩ => ⟨S128, .i32⟩
  | .hbm, ⟨4, _⟩ => ⟨S128x32x128, .f32⟩
  | .hbm, ⟨5, _⟩ => ⟨S_, .f32⟩
  | .hbm, ⟨6, _⟩ => ⟨S128x32, .f32⟩
  | .hbm, ⟨7, _⟩ => ⟨S128x32x1, .f32⟩
  | .hbm, ⟨8, _⟩ => ⟨S128x32x1, .f32⟩
  | .hbm, ⟨9, _⟩ => ⟨S_, .f32⟩
  | .hbm, ⟨10, _⟩ => ⟨S128x32x1, .f32⟩
  | .hbm, ⟨11, _⟩ => ⟨S128x32x1, .f32⟩
  | .hbm, ⟨12, _⟩ => ⟨S128x32x128, .f32⟩
  | .hbm, ⟨13, _⟩ => ⟨S128x32x128, .f32⟩
  | .hbm, ⟨14, _⟩ => ⟨S128x128x128, .f32⟩
  | .hbm, ⟨15, _⟩ => ⟨S_, .f32⟩
  | .hbm, ⟨16, _⟩ => ⟨S128x128, .f32⟩
  | .hbm, ⟨17, _⟩ => ⟨S128x128x1, .f32⟩
  | .hbm, ⟨18, _⟩ => ⟨S128x128x1, .f32⟩
  | .hbm, ⟨19, _⟩ => ⟨S_, .f32⟩
  | .hbm, ⟨20, _⟩ => ⟨S128x128x1, .f32⟩
  | .hbm, ⟨21, _⟩ => ⟨S128x128x1, .f32⟩
  | .hbm, ⟨22, _⟩ => ⟨S128x128x128, .f32⟩
  | .hbm, ⟨23, _⟩ => ⟨S128x128x128, .f32⟩
  | .hbm, ⟨24, _⟩ => ⟨S128x128x128x32, .f32⟩
  | .hbm, ⟨25, _⟩ => ⟨S128x128x32x128, .f32⟩
  | .hbm, ⟨26, _⟩ => ⟨S_, .f32⟩
  | .hbm, ⟨27, _⟩ => ⟨S128x128x32, .f32⟩
  | .hbm, ⟨28, _⟩ => ⟨S_, .f32⟩
  | .hbm, ⟨29, _⟩ => ⟨S128x128, .f32⟩
  | .hbm, ⟨30, _⟩ => ⟨S_, .f32⟩
  | .hbm, ⟨31, _⟩ => ⟨S128x128, .f32⟩
  | .hbm, ⟨32, _⟩ => ⟨S128x128, .f32⟩
  | .hbm, ⟨33, _⟩ => ⟨S_, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128x1, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S_, .f32⟩
  | .hbm, ⟨43, _⟩ => ⟨S128, .f32⟩
  | .hbm, ⟨44, _⟩ => ⟨S128x1, .f32⟩
  | .hbm, ⟨45, _⟩ => ⟨S128x1, .f32⟩
  | .hbm, ⟨46, _⟩ => ⟨S128x128, .f32⟩
  | .hbm, ⟨47, _⟩ => ⟨S128x128, .f32⟩
  | .hbm, ⟨48, _⟩ => ⟨S128, .i32⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S128x1, .i32⟩
  | .hbm, ⟨64, _⟩ => ⟨S128x1, .i32⟩
  | .hbm, ⟨65, _⟩ => ⟨S128x2, .i32⟩
  | .hbm, ⟨66, _⟩ => ⟨S128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S128x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v17 : Ref sig .tc := ⟨.hbm, 47, rfl⟩
abbrev main_v18 : Ref sig .tc := ⟨.hbm, 48, rfl⟩
abbrev main_c : Ref sig .tc := ⟨.hbm, 49, rfl⟩
abbrev main_v19 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩
abbrev main_cst_7 : Ref sig .tc := ⟨.hbm, 69, rfl⟩
abbrev main_v34 : Ref sig .tc := ⟨.hbm, 70, rfl⟩
abbrev main_v35 : Ref sig .tc := ⟨.hbm, 71, rfl⟩

abbrev nD : Nat := 1
abbrev τ : Topo := Topo.v7x

variable {F : FTy → Type} [FloatOps F]

class Facts₀ : Prop where
  reducesTo_S128x32x128_S128x32_d2 : S128x32x128.ReducesTo [2] S128x32
  h_S_ : 0 < S_.numel
  bcast_S128x32_S128x32x1_0_1 : S128x32.BroadcastsInDim S128x32x1 (![0, 1] : Fin 2 → Fin S128x32x1.rank)
  bcast_S_S128x32x1 : S_.BroadcastsInDim S128x32x1 (![] : Fin 0 → Fin S128x32x1.rank)
  bcast_S128x32x1_S128x32x128_0_1_2 : S128x32x1.BroadcastsInDim S128x32x128 (![0, 1, 2] : Fin 3 → Fin S128x32x128.rank)
  reducesTo_S128x128x128_S128x128_d2 : S128x128x128.ReducesTo [2] S128x128
  bcast_S128x128_S128x128x1_0_1 : S128x128.BroadcastsInDim S128x128x1 (![0, 1] : Fin 2 → Fin S128x128x1.rank)
  bcast_S_S128x128x1 : S_.BroadcastsInDim S128x128x1 (![] : Fin 0 → Fin S128x128x1.rank)
  bcast_S128x128x1_S128x128x128_0_1_2 : S128x128x1.BroadcastsInDim S128x128x128 (![0, 1, 2] : Fin 3 → Fin S128x128x128.rank)
  transposes_S128x128x128x32_S128x128x32x128_2_0_3_1 : S128x128x128x32.Transposes [2, 0, 3, 1] S128x128x32x128
  reducesTo_S128x128x32x128_S128x128x32_d3 : S128x128x32x128.ReducesTo [3] S128x128x32
  reducesTo_S128x128x32_S128x128_d2 : S128x128x32.ReducesTo [2] S128x128
  bcast_S_S128x128 : S_.BroadcastsInDim S128x128 (![] : Fin 0 → Fin S128x128.rank)
  reducesTo_S128x128_S128_d1 : S128x128.ReducesTo [1] S128
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  concatenates_S128x1_S128x1_S128x2_d1 : Shape.Concatenates [S128x1, S128x1] S128x2 1
  reducesTo_S128_S_d0 : S128.ReducesTo [0] S_
  dot_S128x128x128_S128x32x128_S128x128x128x32_2_2_01_01_n_n_wf : DotDims.WF S128x128x128 S128x32x128 S128x128x128x32 [2] [2] [0, 1] [0, 1] [] []
  gather_S128x128_S128x2_S128_n_01_n_n_01_1_11_wf : GatherDims.WF S128x128 S128x2 S128 [] [0, 1] [] [0, 1] [] 1 ![1, 1]

variable [Facts₀]

def dot_S128x128x128_S128x32x128_S128x128x128x32_2_2_01_01_n_n : DotDims S128x128x128 S128x32x128 S128x128x128x32 where
  lhsContracting := [2]
  rhsContracting := [2]
  lhsNonContracting := [0, 1]
  rhsNonContracting := [0, 1]
  lhsBatch := []
  rhsBatch := []
  wf := dot_S128x128x128_S128x32x128_S128x128x128x32_2_2_01_01_n_n_wf
def gather_S128x128_S128x2_S128_n_01_n_n_01_1_11 : GatherDims S128x128 S128x2 S128 where
  offsetDims := []
  collapsedSliceDims := [0, 1]
  operandBatchingDims := []
  startIndicesBatchingDims := []
  startIndexMap := [0, 1]
  indexVectorDim := 1
  sliceSizes := ![1, 1]
  wf := gather_S128x128_S128x2_S128_n_01_n_n_01_1_11_wf

class Facts : Prop extends Facts₀ where

variable [Facts]
-- ==== Proof.MaxSumRow.lean ====
/-
  One output row of a MaxSim block, read off a score matrix.

  A score matrix `M` has one row per (query, query token) pair — row `32 * a + b` is token `b` of query `a` — and one
  column per (document, document token) pair. The document at column offset `off` owns the 128 columns `off + j`.
  The body cuts those 128 columns out, views the 1024 rows as 32 queries of 32 tokens, takes the maximum over the 128
  document tokens, and adds the 32 maxima of a query up. Read at query `a` the result is
      ∑ b, max_j M (32 * a + b, off + j),
  the maximum taken as a fold of `max` from the accumulator -∞ (the word 0xFF800000).
-/
import Idealize.ShloMosaic.Lib.ValueIdx
import Idealize.ShloMosaic.Lib.ValueLayout
import Idealize.ShloMosaic.Lib.Pipeline.Value
import Idealize.ShloMosaic.PureOps.Ideal.Laws

noncomputable section

namespace Cert.MaxSim

open Idealize.ShloMosaic Idealize.ShloMosaic.ValueIdx

abbrev SMat : Shape := ⟨2, ![1024, 2048]⟩
abbrev SCols : Shape := ⟨2, ![1024, 128]⟩
abbrev SCube : Shape := ⟨3, ![32, 32, 128]⟩
abbrev SSq : Shape := ⟨2, ![32, 32]⟩
abbrev SSq1 : Shape := ⟨3, ![32, 32, 1]⟩
abbrev SCol : Shape := ⟨2, ![32, 1]⟩
abbrev SVec : Shape := ⟨1, ![32]⟩
abbrev SRow : Shape := ⟨2, ![1, 32]⟩

/-- Row `32 * a + b` of the score matrix: token `b` of query `a`. -/
def row32 (a b : Fin 32) : Fin 1024 := ⟨32 * a.val + b.val, by have := a.isLt; have := b.isLt; omega⟩

/-- Column `off + j` of the score matrix: token `j` of the document whose columns start at `off`. -/
def colAt (off : ℕ) (hoff : off + 128 ≤ 2048) (j : Fin 128) : Fin 2048 := ⟨off + j.val, by have := j.isLt; omega⟩

/-- The body's chain from the score matrix to one stored row: the 128 columns of one document, the rows regrouped by
    query, the maximum over the document's tokens, the sum over the query's tokens, laid out as a [1, 32] row. -/
def rowPiece (off : ℕ) (M : FVec Ideal SMat .f32) (hs : SMat.Slices ![0, off] SCols) (hc1 : SCols.ShapeCasts SCube)
    (hr1 : SCube.Reduces [2] SSq) (hc2 : SSq.ShapeCasts SSq1) (hr2 : SSq1.Reduces [1] SCol) (hc3 : SCol.ShapeCasts SVec)
    (hc4 : SVec.ShapeCasts SRow) : FVec Ideal SRow .f32 :=
  shapeCast SRow (shapeCast SVec (multiReduction .add [1] SCol (shapeCast SSq1 (multiReduction .maximumf [2] SSq
    (shapeCast SCube (extractStridedSlice SCols ![0, off] M hs) hc1) 0xFF800000#32 hr1 (.inl rfl) rfl) hc2)
    0x00000000#32 hr2 (.inl rfl) rfl) hc3) hc4

/-- The maximum over a document's tokens, from the accumulator -∞, of the scores of one query token. -/
def maxOver (f : Fin 128 → EReal) : EReal :=
  (Finset.univ : Finset (Fin 128)).fold max (Ideal.ofBits .f32 0xFF800000#32) f

/-- A maximum over the last axis of a [32, 32, 128] array, from the accumulator -∞, read at (a, b). -/
theorem maxTokens (X : FVec Ideal SCube .f32) (hr1 : SCube.Reduces [2] SSq) (a b : Fin 32) :
    multiReduction .maximumf [2] SSq X 0xFF800000#32 hr1 (.inl rfl) rfl (ix2 a b) = maxOver fun j => X (ix3 a b j) :=
  (Ideal.multiReduction_maximumf_single X 0xFF800000#32 hr1 (.inl rfl) rfl (ix2 a b)).trans
    (congrArg (fun f => Finset.fold max (Ideal.ofBits .f32 0xFF800000#32) f (Finset.univ : Finset (Fin 128)))
      (funext fun j => congrArg X (funext fun c => Fin.ext (by match c with | ⟨0, _⟩ => rfl | ⟨1, _⟩ => rfl | ⟨2, _⟩ => rfl))))

/-- A sum over the middle axis of a [32, 32, 1] array read at (a, u). -/
theorem sumTokens (Y : FVec Ideal SSq1 .f32) (hr2 : SSq1.Reduces [1] SCol) (a : Fin 32) (u : Fin 1) :
    multiReduction .add [1] SCol Y 0x00000000#32 hr2 (.inl rfl) rfl (ix2 a u) = ∑ b : Fin 32, Y (ix3 a b u) :=
  (Ideal.multiReduction_add_single Y 0x00000000#32 hr2 (.inl rfl) rfl (ix2 a u)).trans
    (Finset.sum_congr rfl fun b _ => congrArg Y (funext fun c => Fin.ext (by match c with | ⟨0, _⟩ => rfl | ⟨1, _⟩ => rfl | ⟨2, _⟩ => rfl)))

theorem rowMajor_col (a : Fin 32) (u : Fin 1) : (SCol.rowMajor (ix2 a u)).val = (SVec.rowMajor (ix1 a)).val := by
  rw [Shape.rowMajor_val_two, Shape.rowMajor_val_one]
  show a.val * 1 + u.val = a.val
  have := u.isLt; omega

theorem rowMajor_sq1 (a b : Fin 32) (u : Fin 1) : (SSq.rowMajor (ix2 a b)).val = (SSq1.rowMajor (ix3 a b u)).val := by
  rw [Shape.rowMajor_val_three, Shape.rowMajor_val_two]
  show a.val * 32 + b.val = (a.val * 32 + b.val) * 1 + u.val
  have := u.isLt; omega

theorem rowMajor_cube (a b : Fin 32) (j : Fin 128) :
    (SCols.rowMajor (ix2 (row32 a b) j)).val = (SCube.rowMajor (ix3 a b j)).val := by
  rw [Shape.rowMajor_val_three, Shape.rowMajor_val_two]
  show (32 * a.val + b.val) * 128 + j.val = (a.val * 32 + b.val) * 128 + j.val
  omega

/-- One stored row at query `a`: the sum over the query's tokens of the maximum over the document's tokens. -/
theorem rowPiece_apply (off : ℕ) (hoff : off + 128 ≤ 2048) (M : FVec Ideal SMat .f32) (hs : SMat.Slices ![0, off] SCols)
    (hc1 : SCols.ShapeCasts SCube) (hr1 : SCube.Reduces [2] SSq) (hc2 : SSq.ShapeCasts SSq1) (hr2 : SSq1.Reduces [1] SCol)
    (hc3 : SCol.ShapeCasts SVec) (hc4 : SVec.ShapeCasts SRow) (u : Fin 1) (a : Fin 32) :
    rowPiece off M hs hc1 hr1 hc2 hr2 hc3 hc4 (ix2 u a)
      = ∑ b : Fin 32, maxOver fun j => M (ix2 (row32 a b) (colAt off hoff j)) :=
  (shapeCast_a_1a_apply _ hc4 u a).trans <|
  (shapeCast_apply _ hc3 (ix1 a) (ix2 a (0 : Fin 1)) (rowMajor_col a 0)).trans <|
  (sumTokens _ hr2 a 0).trans <|
  Finset.sum_congr rfl fun b _ =>
    (shapeCast_apply _ hc2 (ix3 a b (0 : Fin 1)) (ix2 a b) (rowMajor_sq1 a b 0)).trans <|
    (maxTokens _ hr1 a b).trans <|
    congrArg maxOver (funext fun j =>
      (shapeCast_apply _ hc1 (ix3 a b j) (ix2 (row32 a b) j) (rowMajor_cube a b j)).trans
        (slice2_axis1_eq off M hs (row32 a b) j))

end Cert.MaxSim

end
-- ==== Proof.UnitToken.lean ====
/-
  A token embedding divided by its norm, as both programs compute it: x / max(sqrt(∑ x²), ε), with ε the f32 word
  0x2B8CBCCC. The sum of squares runs over the 128 features of the token in their own order; the quotient is the
  extended reals' (`Ideal.div`), so nothing here asks the entries to be finite.
-/
import Idealize.ShloMosaic.Lib.ValueIdx
import Idealize.ShloMosaic.PureOps.Ideal.Laws

noncomputable section

namespace Cert.MaxSim

open Idealize.ShloMosaic Idealize.ShloMosaic.ValueIdx

/-- The squared norm of token (a, b) of an [A, B, 128] array. -/
def sumSq {A B : ℕ} (x : (⟨3, ![A, B, 128]⟩ : Shape).Idx → EReal) (a : Fin A) (b : Fin B) : EReal :=
  ∑ k' : Fin 128, x (ix3 a b k') * x (ix3 a b k')

/-- Feature `k` of token (a, b) over the larger of the token's norm and ε. -/
def unitTok {A B : ℕ} (x : (⟨3, ![A, B, 128]⟩ : Shape).Idx → EReal) (a : Fin A) (b : Fin B) (k : Fin 128) : EReal :=
  Ideal.div (x (ix3 a b k)) (max (Ideal.sqrt (sumSq x a b)) (Ideal.ofBits .f32 0x2B8CBCCC#32))

/-- A token's normalized features depend on that token's features only: two arrays that agree on one token of each give
    the same normalized token. -/
theorem unitTok_congr {A B A' B' : ℕ} (x : (⟨3, ![A, B, 128]⟩ : Shape).Idx → EReal) (x' : (⟨3, ![A', B', 128]⟩ : Shape).Idx → EReal)
    (a : Fin A) (b : Fin B) (a' : Fin A') (b' : Fin B') (h : ∀ k, x (ix3 a b k) = x' (ix3 a' b' k)) (k : Fin 128) :
    unitTok x a b k = unitTok x' a' b' k := by
  unfold unitTok sumSq
  rw [h k, Finset.sum_congr rfl fun k' _ => by rw [h k']]

end Cert.MaxSim

end
-- ==== Proof.Scores.lean ====
/-
  The score matrix of one chunk of queries against one block of documents, read at an entry.

  The body normalizes the block's document tokens (each token over the larger of its norm and ε), lays the 16 × 128
  tokens out as the 2048 rows of a matrix, lays the chunk's 32 × 32 query tokens out as the 1024 rows of another, and
  multiplies the two over the 128 features into the zero accumulator. Entry (32 * a + b, 128 * y + j) of the product is
      ∑ k, q (a, b, k) * unit d (y, j, k),
  the inner product of query token (a, b) with the normalized document token (y, j).
-/
import proofs.«109981_j25460566131136_2_alg».proof.Proof.Gen.KernelIdeal.Skeleton
import proofs.«109981_j25460566131136_2_alg».proof.Proof.MaxSumRow
import proofs.«109981_j25460566131136_2_alg».proof.Proof.UnitToken

noncomputable section

namespace Cert.MaxSim

open Idealize.ShloMosaic Idealize.ShloMosaic.ValueIdx Cert.KernelIdeal Cert.KernelIdeal.Gen

/-- Row `128 * y + j` of the document matrix: token `j` of the block's document `y`. -/
def tok (y : Fin 16) (j : Fin 128) : Fin 2048 := ⟨128 * y.val + j.val, by have := y.isLt; have := j.isLt; omega⟩

theorem colAt_eq_tok (y : Fin 16) (h : 128 * y.val + 128 ≤ 2048) (j : Fin 128) : colAt (128 * y.val) h j = tok y j := rfl

/-! ## The product at an entry -/

theorem lhs_dot_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl
theorem lhs_dot_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhs_dot_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl
theorem rhs_dot_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The product of a [1024, 128] by a [2048, 128] matrix over their second axes, into zero, at (p, n):
    the inner product of row `p` of the first with row `n` of the second. -/
theorem scores_apply (L2 : FVec Ideal S1024x128 .bf16) (R : FVec Ideal S2048x128 .bf16) (p : Fin 1024) (n : Fin 2048) :
    matmul dot_S1024x128_S2048x128_S1024x2048_1_1_0_0_n_n none L2 R (constant (F := Ideal) S1024x2048 .f32 0x00000000#32) (ix2 p n)
      = ∑ k : Fin 128, L2 (ix2 p k) * R (ix2 n k) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 p n) ((contrEquiv1 dot_S1024x128_S2048x128_S1024x2048_1_1_0_0_n_n 128 rfl rfl).symm k) = ix2 p k :=
    funext fun a => Fin.ext (by
      match a with
      | ⟨0, _⟩ => exact lhs_dot_0 _ _
      | ⟨1, _⟩ => exact (lhs_dot_1 _ _).trans hk)
  have er : dot_S1024x128_S2048x128_S1024x2048_1_1_0_0_n_n.rhsIdx (ix2 p n) ((contrEquiv1 dot_S1024x128_S2048x128_S1024x2048_1_1_0_0_n_n 128 rfl rfl).symm k) = ix2 n k :=
    funext fun a => Fin.ext (by
      match a with
      | ⟨0, _⟩ => exact rhs_dot_0 _ _
      | ⟨1, _⟩ => exact (rhs_dot_1 _ _).trans hk)
  rw [el, er]

/-! ## The two operands at an entry -/

/-- The chunk's query tokens as matrix rows: row `32 * a + b` is token (a, b). -/
theorem queryRows_apply (Lc : FVec Ideal S32x32x128 .bf16) (h0 : S32x32x128.ShapeCasts S32x32x128)
    (h1 : S32x32x128.ShapeCasts S1024x128) (a b : Fin 32) (k : Fin 128) :
    shapeCast S1024x128 (shapeCast S32x32x128 Lc h0) h1 (ix2 (row32 a b) k) = Lc (ix3 a b k) :=
  (shapeCast_apply _ h1 (ix2 (row32 a b) k) (ix3 a b k) (rowMajor_cube a b k).symm).trans
    (congrFun (shapeCast_self Lc h0) _)

theorem rowMajor_tok (y : Fin 16) (j k : Fin 128) :
    (S16x128x128.rowMajor (ix3 y j k)).val = (S2048x128.rowMajor (ix2 (tok y j) k)).val := by
  rw [Shape.rowMajor_val_three, Shape.rowMajor_val_two]
  show (y.val * 128 + j.val) * 128 + k.val = (128 * y.val + j.val) * 128 + k.val
  omega

theorem rowMajor_keep (y : Fin 16) (j : Fin 128) (u : Fin 1) :
    (S16x128.rowMajor (ix2 y j)).val = (S16x128x1.rowMajor (ix3 y j u)).val := by
  rw [Shape.rowMajor_val_three, Shape.rowMajor_val_two]
  show y.val * 128 + j.val = (y.val * 128 + j.val) * 1 + u.val
  have := u.isLt; omega

/-- The sum of a block's squares over the feature axis, at token (y, j). -/
theorem sumSq_apply (v0 : FVec Ideal S16x128x128 .f32) (hr : S16x128x128.Reduces [2] S16x128) (y : Fin 16) (j : Fin 128) :
    multiReduction .add [2] S16x128 (mulf v0 v0) 0x00000000#32 hr (.inl rfl) rfl (ix2 y j) = sumSq v0 y j :=
  (Ideal.multiReduction_add_single (mulf v0 v0) 0x00000000#32 hr (.inl rfl) rfl (ix2 y j)).trans
    (Finset.sum_congr rfl fun k' _ => congrArg (fun i => v0 i * v0 i)
      (funext fun c => Fin.ext (by match c with | ⟨0, _⟩ => rfl | ⟨1, _⟩ => rfl | ⟨2, _⟩ => rfl)))

/-- The block's normalized document tokens as matrix rows: row `128 * y + j` is the normalized token (y, j). -/
theorem docRows_apply (v0 : FVec Ideal S16x128x128 .f32) (y : Fin 16) (j k : Fin 128) :
    k0_pay1 (F := Ideal) v0 (ix2 (tok y j) k) = unitTok v0 y j k := by
  unfold k0_pay1
  refine (shapeCast_apply _ _ (ix2 (tok y j) k) (ix3 y j k) (rowMajor_tok y j k)).trans ?_
  show Ideal.div (v0 (ix3 y j k)) (broadcastTo S16x128x128 _ _ (ix3 y j k)) = _
  unfold unitTok
  refine congrArg (Ideal.div (v0 (ix3 y j k))) ?_
  refine (broadcastTo_apply _ _ (ix3 y j k) (ix3 y j (0 : Fin 1)) (fun a => by
    match a with
    | ⟨0, _⟩ => show y.val = if (16 : ℕ) = 1 then 0 else y.val; rw [if_neg (by decide)]
    | ⟨1, _⟩ => show j.val = if (128 : ℕ) = 1 then 0 else j.val; rw [if_neg (by decide)]
    | ⟨2, _⟩ => show (0 : ℕ) = if (1 : ℕ) = 1 then 0 else k.val; rw [if_pos rfl])).trans ?_
  show max (Ideal.sqrt (shapeCast S16x128x1 _ _ (ix3 y j (0 : Fin 1)))) (Ideal.ofBits .f32 0x2B8CBCCC#32) = _
  refine congrArg (fun z => max (Ideal.sqrt z) (Ideal.ofBits .f32 0x2B8CBCCC#32)) ?_
  refine (shapeCast_apply _ _ (ix3 y j (0 : Fin 1)) (ix2 y j) (rowMajor_keep y j 0)).trans ?_
  exact sumSq_apply v0 _ y j

end Cert.MaxSim

end
-- ==== Proof.Spec.lean ====
/-
  The MaxSim score of a query against a document, as one function of the two token arrays.

  For query `x` with tokens q (x, b, ·), b < 32, and document `y` with tokens d (y, j, ·), j < 128:
      sim (x, y) = ∑ b, max_j ∑ k, q (x, b, k) * unit d (y, j, k),
  every document token normalized (`unitTok`), the maximum a fold of `max` from -∞ (`maxOver`), the query array taken
  as it is. Both programs compute this number at every pair: the kernel one block of 16 documents at a time, the
  reference for all 128 at once.
-/
import proofs.«109981_j25460566131136_2_alg».proof.Proof.MaxSumRow
import proofs.«109981_j25460566131136_2_alg».proof.Proof.UnitToken

noncomputable section

namespace Cert.MaxSim

open Idealize.ShloMosaic Idealize.ShloMosaic.ValueIdx

/-- The score of query `x` of the query array `q` against document `y` of an array `d` of `A` documents. -/
def simAt {A : ℕ} (q : (⟨3, ![128, 32, 128]⟩ : Shape).Idx → EReal) (d : (⟨3, ![A, 128, 128]⟩ : Shape).Idx → EReal)
    (x : Fin 128) (y : Fin A) : EReal :=
  ∑ b : Fin 32, maxOver fun j => ∑ k : Fin 128, q (ix3 x b k) * unitTok d y j k

/-- The score depends on the document's own tokens only. -/
theorem simAt_congr {A A' : ℕ} (q : (⟨3, ![128, 32, 128]⟩ : Shape).Idx → EReal) (d : (⟨3, ![A, 128, 128]⟩ : Shape).Idx → EReal)
    (d' : (⟨3, ![A', 128, 128]⟩ : Shape).Idx → EReal) (x : Fin 128) (y : Fin A) (y' : Fin A')
    (h : ∀ j k, d (ix3 y j k) = d' (ix3 y' j k)) : simAt q d x y = simAt q d' x y' := by
  unfold simAt
  refine Finset.sum_congr rfl fun b _ => congrArg maxOver (funext fun j => Finset.sum_congr rfl fun k _ => ?_)
  rw [unitTok_congr d d' y j y' j (h j) k]

end Cert.MaxSim

end
-- ==== Proof.Block.lean ====
/-
  What the body leaves in the output block, as one function of the two input blocks.

  The body stores 64 rows of 32 numbers: for each of the four chunks `c` of 32 queries and each of the block's 16 documents
  `y`, the 32 scores of the chunk's queries against that document, at row `y`, columns `32 * c …  32 * c + 31` of the
  [16, 128] block. Each stored number is the MaxSim score (`simAt`) of its query against its document, so the block
  holds at (y, x) the score of query `x` against the block's document `y`.
-/
import proofs.«109981_j25460566131136_2_alg».proof.Proof.Gen.KernelIdeal.Frame
import proofs.«109981_j25460566131136_2_alg».proof.Proof.Scores
import proofs.«109981_j25460566131136_2_alg».proof.Proof.Spec

noncomputable section

namespace Cert.MaxSim

open Idealize.ShloMosaic Idealize.ShloMosaic.ValueIdx Cert.KernelIdeal Cert.KernelIdeal.Gen

/-- The output block as a function of the resident query array and the block of 16 documents: at (y, x) the score of
    query `x` against the block's document `y`. -/
def blockSim (x0 : FVec Ideal S128x32x128 .bf16) (x1 : FVec Ideal S16x128x128 .f32) : S16x128.Idx → EReal :=
  fun i => simAt x0 x1 ⟨(i 1).val, (i 1).isLt⟩ ⟨(i 0).val, (i 0).isLt⟩

theorem blockSim_at (x0 : FVec Ideal S128x32x128 .bf16) (x1 : FVec Ideal S16x128x128 .f32) (i : S16x128.Idx) (y : Fin 16) (x : Fin 128)
    (h0 : (i 0).val = y.val) (h1 : (i 1).val = x.val) : blockSim x0 x1 i = simAt x0 x1 x y := by
  have e0 : (⟨(i 0).val, (i 0).isLt⟩ : Fin 16) = y := Fin.ext h0
  have e1 : (⟨(i 1).val, (i 1).isLt⟩ : Fin 128) = x := Fin.ext h1
  unfold blockSim
  rw [e0, e1]

theorem zero3 : (![0, 0, 0] : Fin 3 → ℕ) = fun _ => 0 := by
  funext a; match a with | ⟨0, _⟩ => rfl | ⟨1, _⟩ => rfl | ⟨2, _⟩ => rfl

/-- The row stored for chunk `c` and document `yy` is the block function under the store's rectangle. -/
theorem piece_eq (yy c : ℕ) (hyy : yy < 16) (hc : c < 4) (x0 : Vec Ideal S128x32x128 .bf16) (x1 : Vec Ideal S16x128x128 .f32)
    (inbL : ∀ a, (![32 * c, 0, 0] : Fin 3 → ℕ) a + S32x32x128.size a ≤ S128x32x128.size a)
    (inbR : ∀ a, (![0, 0, 0] : Fin 3 → ℕ) a + S16x128x128.size a ≤ S16x128x128.size a)
    (inbO : ∀ a, (![yy, 32 * c] : Fin 2 → ℕ) a + S1x32.size a ≤ S16x128.size a)
    (hs : S1024x2048.Slices ![0, 128 * yy] S1024x128) (h0 : S32x32x128.ShapeCasts S32x32x128) (h1 : S32x32x128.ShapeCasts S1024x128)
    (hc1 : S1024x128.ShapeCasts S32x32x128) (hr1 : S32x32x128.Reduces [2] S32x32) (hc2 : S32x32.ShapeCasts S32x32x1)
    (hr2 : S32x32x1.Reduces [1] S32x1) (hc3 : S32x1.ShapeCasts S32) (hc4 : S32.ShapeCasts S1x32) (x : S1x32.Idx) :
    rowPiece (128 * yy) (matmul dot_S1024x128_S2048x128_S1024x2048_1_1_0_0_n_n none
        (shapeCast S1024x128 (shapeCast S32x32x128 (View.ld x0 (Rect.unit (s := S128x32x128) ![32 * c, 0, 0] S32x32x128.size inbL)) h0 : FVec Ideal S32x32x128 .bf16) h1 : FVec Ideal S1024x128 .bf16)
        (k0_pay1 (F := Ideal) (View.ld x1 (Rect.unit (s := S16x128x128) ![0, 0, 0] S16x128x128.size inbR)))
        (constant (F := Ideal) S1024x2048 .f32 0x00000000#32)) hs hc1 hr1 hc2 hr2 hc3 hc4 x
      = blockSim x0 x1 ((Rect.unit (s := S16x128) ![yy, 32 * c] S1x32.size inbO).emb x) := by
  obtain ⟨u, a, rfl⟩ : ∃ (u : Fin 1) (a : Fin 32), x = ix2 u a := ⟨x 0, x 1, eq_ix2 x⟩
  have hoff : 128 * yy + 128 ≤ 2048 := by omega
  have hu : u.val = 0 := by have := u.isLt; omega
  have ha := a.isLt
  rw [blockSim_at x0 x1 _ (⟨yy, hyy⟩ : Fin 16) (⟨32 * c + a.val, by omega⟩ : Fin 128)
    (by show yy + 1 * u.val = yy; omega) (by show 32 * c + 1 * a.val = 32 * c + a.val; omega)]
  refine (rowPiece_apply (128 * yy) hoff _ hs hc1 hr1 hc2 hr2 hc3 hc4 u a).trans ?_
  refine Finset.sum_congr rfl fun b _ => congrArg maxOver (funext fun j => ?_)
  refine (scores_apply _ _ (row32 a b) (colAt (128 * yy) hoff j)).trans (Finset.sum_congr rfl fun k _ => ?_)
  have e1 : (shapeCast S1024x128 (shapeCast S32x32x128 (View.ld x0 (Rect.unit (s := S128x32x128) ![32 * c, 0, 0] S32x32x128.size inbL)) h0 : FVec Ideal S32x32x128 .bf16) h1 : FVec Ideal S1024x128 .bf16) (ix2 (row32 a b) k)
      = x0 (ix3 (⟨32 * c + a.val, by omega⟩ : Fin 128) b k) :=
    (queryRows_apply _ h0 h1 a b k).trans (congrArg x0 (funext fun d => Fin.ext (by
      match d with
      | ⟨0, _⟩ => show 32 * c + 1 * a.val = 32 * c + a.val; omega
      | ⟨1, _⟩ => show 0 + 1 * b.val = b.val; omega
      | ⟨2, _⟩ => show 0 + 1 * k.val = k.val; omega)))
  have e2 : k0_pay1 (F := Ideal) (View.ld x1 (Rect.unit (s := S16x128x128) ![0, 0, 0] S16x128x128.size inbR)) (ix2 (colAt (128 * yy) hoff j) k)
      = unitTok x1 (⟨yy, hyy⟩ : Fin 16) j k :=
    (docRows_apply _ (⟨yy, hyy⟩ : Fin 16) j k).trans
      (congrArg (fun v : FVec Ideal S16x128x128 .f32 => unitTok v (⟨yy, hyy⟩ : Fin 16) j k) (View.ld_unit_zero zero3 inbR x1))
  rw [e1, e2]

/-- The 64 stored rows are blocks of the one function `blockSim` and tile the [16, 128] buffer, so the buffer the body
    leaves is `blockSim` of the two input blocks. The rows are listed as the stores were made, last first: chunk 3 down to
    chunk 0, and within a chunk document 15 down to document 0. -/
theorem out_eq (x0 : Vec Ideal S128x32x128 .bf16) (x1 : Vec Ideal S16x128x128 .f32) :
    out0_2 (F := Ideal) x0 x1 = blockSim x0 x1 := by
  funext y
  unfold out0_2
  refine View.canon_apply_of_pieces (Val := Elt Ideal) (S := S16x128) (e := EltTy.f32) (blockSim x0 x1) _ (List.forall_iff_forall_mem.mp ?_) y
    (cover0_2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact ⟨
    fun x => piece_eq 15 3 (by decide) (by decide) x0 x1 inb_S128x32x128_S32x32x128_96_0_0 inb_S16x128x128_S16x128x128_0_0_0 inb_S16x128_S1x32_15_96
      slices_S1024x2048_o0_1920_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 14 3 (by decide) (by decide) x0 x1 inb_S128x32x128_S32x32x128_96_0_0 inb_S16x128x128_S16x128x128_0_0_0 inb_S16x128_S1x32_14_96
      slices_S1024x2048_o0_1792_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 13 3 (by decide) (by decide) x0 x1 inb_S128x32x128_S32x32x128_96_0_0 inb_S16x128x128_S16x128x128_0_0_0 inb_S16x128_S1x32_13_96
      slices_S1024x2048_o0_1664_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 12 3 (by decide) (by decide) x0 x1 inb_S128x32x128_S32x32x128_96_0_0 inb_S16x128x128_S16x128x128_0_0_0 inb_S16x128_S1x32_12_96
      slices_S1024x2048_o0_1536_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 11 3 (by decide) (by decide) x0 x1 inb_S128x32x128_S32x32x128_96_0_0 inb_S16x128x128_S16x128x128_0_0_0 inb_S16x128_S1x32_11_96
      slices_S1024x2048_o0_1408_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 10 3 (by decide) (by decide) x0 x1 inb_S128x32x128_S32x32x128_96_0_0 inb_S16x128x128_S16x128x128_0_0_0 inb_S16x128_S1x32_10_96
      slices_S1024x2048_o0_1280_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 9 3 (by decide) (by decide) x0 x1 inb_S128x32x128_S32x32x128_96_0_0 inb_S16x128x128_S16x128x128_0_0_0 inb_S16x128_S1x32_9_96
      slices_S1024x2048_o0_1152_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 8 3 (by decide) (by decide) x0 x1 inb_S128x32x128_S32x32x128_96_0_0 inb_S16x128x128_S16x128x128_0_0_0 inb_S16x128_S1x32_8_96
      slices_S1024x2048_o0_1024_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 7 3 (by decide) (by decide) x0 x1 inb_S128x32x128_S32x32x128_96_0_0 inb_S16x128x128_S16x128x128_0_0_0 inb_S16x128_S1x32_7_96
      slices_S1024x2048_o0_896_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 6 3 (by decide) (by decide) x0 x1 inb_S128x32x128_S32x32x128_96_0_0 inb_S16x128x128_S16x128x128_0_0_0 inb_S16x128_S1x32_6_96
      slices_S1024x2048_o0_768_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 5 3 (by decide) (by decide) x0 x1 inb_S128x32x128_S32x32x128_96_0_0 inb_S16x128x128_S16x128x128_0_0_0 inb_S16x128_S1x32_5_96
      slices_S1024x2048_o0_640_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 4 3 (by decide) (by decide) x0 x1 inb_S128x32x128_S32x32x128_96_0_0 inb_S16x128x128_S16x128x128_0_0_0 inb_S16x128_S1x32_4_96
      slices_S1024x2048_o0_512_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 3 3 (by decide) (by decide) x0 x1 inb_S128x32x128_S32x32x128_96_0_0 inb_S16x128x128_S16x128x128_0_0_0 inb_S16x128_S1x32_3_96
      slices_S1024x2048_o0_384_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 2 3 (by decide) (by decide) x0 x1 inb_S128x32x128_S32x32x128_96_0_0 inb_S16x128x128_S16x128x128_0_0_0 inb_S16x128_S1x32_2_96
      slices_S1024x2048_o0_256_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 1 3 (by decide) (by decide) x0 x1 inb_S128x32x128_S32x32x128_96_0_0 inb_S16x128x128_S16x128x128_0_0_0 inb_S16x128_S1x32_1_96
      slices_S1024x2048_o0_128_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 0 3 (by decide) (by decide) x0 x1 inb_S128x32x128_S32x32x128_96_0_0 inb_S16x128x128_S16x128x128_0_0_0 inb_S16x128_S1x32_0_96
      slices_S1024x2048_o0_0_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 15 2 (by decide) (by decide) x0 x1 inb_S128x32x128_S32x32x128_64_0_0 inb_S16x128x128_S16x128x128_0_0_0 inb_S16x128_S1x32_15_64
      slices_S1024x2048_o0_1920_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 14 2 (by decide) (by decide) x0 x1 inb_S128x32x128_S32x32x128_64_0_0 inb_S16x128x128_S16x128x128_0_0_0 inb_S16x128_S1x32_14_64
      slices_S1024x2048_o0_1792_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 13 2 (by decide) (by decide) x0 x1 inb_S128x32x128_S32x32x128_64_0_0 inb_S16x128x128_S16x128x128_0_0_0 inb_S16x128_S1x32_13_64
      slices_S1024x2048_o0_1664_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 12 2 (by decide) (by decide) x0 x1 inb_S128x32x128_S32x32x128_64_0_0 inb_S16x128x128_S16x128x128_0_0_0 inb_S16x128_S1x32_12_64
      slices_S1024x2048_o0_1536_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 11 2 (by decide) (by decide) x0 x1 inb_S128x32x128_S32x32x128_64_0_0 inb_S16x128x128_S16x128x128_0_0_0 inb_S16x128_S1x32_11_64
      slices_S1024x2048_o0_1408_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 10 2 (by decide) (by decide) x0 x1 inb_S128x32x128_S32x32x128_64_0_0 inb_S16x128x128_S16x128x128_0_0_0 inb_S16x128_S1x32_10_64
      slices_S1024x2048_o0_1280_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 9 2 (by decide) (by decide) x0 x1 inb_S128x32x128_S32x32x128_64_0_0 inb_S16x128x128_S16x128x128_0_0_0 inb_S16x128_S1x32_9_64
      slices_S1024x2048_o0_1152_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 8 2 (by decide) (by decide) x0 x1 inb_S128x32x128_S32x32x128_64_0_0 inb_S16x128x128_S16x128x128_0_0_0 inb_S16x128_S1x32_8_64
      slices_S1024x2048_o0_1024_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 7 2 (by decide) (by decide) x0 x1 inb_S128x32x128_S32x32x128_64_0_0 inb_S16x128x128_S16x128x128_0_0_0 inb_S16x128_S1x32_7_64
      slices_S1024x2048_o0_896_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 6 2 (by decide) (by decide) x0 x1 inb_S128x32x128_S32x32x128_64_0_0 inb_S16x128x128_S16x128x128_0_0_0 inb_S16x128_S1x32_6_64
      slices_S1024x2048_o0_768_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 5 2 (by decide) (by decide) x0 x1 inb_S128x32x128_S32x32x128_64_0_0 inb_S16x128x128_S16x128x128_0_0_0 inb_S16x128_S1x32_5_64
      slices_S1024x2048_o0_640_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 4 2 (by decide) (by decide) x0 x1 inb_S128x32x128_S32x32x128_64_0_0 inb_S16x128x128_S16x128x128_0_0_0 inb_S16x128_S1x32_4_64
      slices_S1024x2048_o0_512_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 3 2 (by decide) (by decide) x0 x1 inb_S128x32x128_S32x32x128_64_0_0 inb_S16x128x128_S16x128x128_0_0_0 inb_S16x128_S1x32_3_64
      slices_S1024x2048_o0_384_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 2 2 (by decide) (by decide) x0 x1 inb_S128x32x128_S32x32x128_64_0_0 inb_S16x128x128_S16x128x128_0_0_0 inb_S16x128_S1x32_2_64
      slices_S1024x2048_o0_256_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 1 2 (by decide) (by decide) x0 x1 inb_S128x32x128_S32x32x128_64_0_0 inb_S16x128x128_S16x128x128_0_0_0 inb_S16x128_S1x32_1_64
      slices_S1024x2048_o0_128_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 0 2 (by decide) (by decide) x0 x1 inb_S128x32x128_S32x32x128_64_0_0 inb_S16x128x128_S16x128x128_0_0_0 inb_S16x128_S1x32_0_64
      slices_S1024x2048_o0_0_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 15 1 (by decide) (by decide) x0 x1 inb_S128x32x128_S32x32x128_32_0_0 inb_S16x128x128_S16x128x128_0_0_0 inb_S16x128_S1x32_15_32
      slices_S1024x2048_o0_1920_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 14 1 (by decide) (by decide) x0 x1 inb_S128x32x128_S32x32x128_32_0_0 inb_S16x128x128_S16x128x128_0_0_0 inb_S16x128_S1x32_14_32
      slices_S1024x2048_o0_1792_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 13 1 (by decide) (by decide) x0 x1 inb_S128x32x128_S32x32x128_32_0_0 inb_S16x128x128_S16x128x128_0_0_0 inb_S16x128_S1x32_13_32
      slices_S1024x2048_o0_1664_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 12 1 (by decide) (by decide) x0 x1 inb_S128x32x128_S32x32x128_32_0_0 inb_S16x128x128_S16x128x128_0_0_0 inb_S16x128_S1x32_12_32
      slices_S1024x2048_o0_1536_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 11 1 (by decide) (by decide) x0 x1 inb_S128x32x128_S32x32x128_32_0_0 inb_S16x128x128_S16x128x128_0_0_0 inb_S16x128_S1x32_11_32
      slices_S1024x2048_o0_1408_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 10 1 (by decide) (by decide) x0 x1 inb_S128x32x128_S32x32x128_32_0_0 inb_S16x128x128_S16x128x128_0_0_0 inb_S16x128_S1x32_10_32
      slices_S1024x2048_o0_1280_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 9 1 (by decide) (by decide) x0 x1 inb_S128x32x128_S32x32x128_32_0_0 inb_S16x128x128_S16x128x128_0_0_0 inb_S16x128_S1x32_9_32
      slices_S1024x2048_o0_1152_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 8 1 (by decide) (by decide) x0 x1 inb_S128x32x128_S32x32x128_32_0_0 inb_S16x128x128_S16x128x128_0_0_0 inb_S16x128_S1x32_8_32
      slices_S1024x2048_o0_1024_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 7 1 (by decide) (by decide) x0 x1 inb_S128x32x128_S32x32x128_32_0_0 inb_S16x128x128_S16x128x128_0_0_0 inb_S16x128_S1x32_7_32
      slices_S1024x2048_o0_896_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 6 1 (by decide) (by decide) x0 x1 inb_S128x32x128_S32x32x128_32_0_0 inb_S16x128x128_S16x128x128_0_0_0 inb_S16x128_S1x32_6_32
      slices_S1024x2048_o0_768_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 5 1 (by decide) (by decide) x0 x1 inb_S128x32x128_S32x32x128_32_0_0 inb_S16x128x128_S16x128x128_0_0_0 inb_S16x128_S1x32_5_32
      slices_S1024x2048_o0_640_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 4 1 (by decide) (by decide) x0 x1 inb_S128x32x128_S32x32x128_32_0_0 inb_S16x128x128_S16x128x128_0_0_0 inb_S16x128_S1x32_4_32
      slices_S1024x2048_o0_512_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 3 1 (by decide) (by decide) x0 x1 inb_S128x32x128_S32x32x128_32_0_0 inb_S16x128x128_S16x128x128_0_0_0 inb_S16x128_S1x32_3_32
      slices_S1024x2048_o0_384_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 2 1 (by decide) (by decide) x0 x1 inb_S128x32x128_S32x32x128_32_0_0 inb_S16x128x128_S16x128x128_0_0_0 inb_S16x128_S1x32_2_32
      slices_S1024x2048_o0_256_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 1 1 (by decide) (by decide) x0 x1 inb_S128x32x128_S32x32x128_32_0_0 inb_S16x128x128_S16x128x128_0_0_0 inb_S16x128_S1x32_1_32
      slices_S1024x2048_o0_128_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 0 1 (by decide) (by decide) x0 x1 inb_S128x32x128_S32x32x128_32_0_0 inb_S16x128x128_S16x128x128_0_0_0 inb_S16x128_S1x32_0_32
      slices_S1024x2048_o0_0_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 15 0 (by decide) (by decide) x0 x1 inb_S128x32x128_S32x32x128_0_0_0 inb_S16x128x128_S16x128x128_0_0_0 inb_S16x128_S1x32_15_0
      slices_S1024x2048_o0_1920_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 14 0 (by decide) (by decide) x0 x1 inb_S128x32x128_S32x32x128_0_0_0 inb_S16x128x128_S16x128x128_0_0_0 inb_S16x128_S1x32_14_0
      slices_S1024x2048_o0_1792_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 13 0 (by decide) (by decide) x0 x1 inb_S128x32x128_S32x32x128_0_0_0 inb_S16x128x128_S16x128x128_0_0_0 inb_S16x128_S1x32_13_0
      slices_S1024x2048_o0_1664_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 12 0 (by decide) (by decide) x0 x1 inb_S128x32x128_S32x32x128_0_0_0 inb_S16x128x128_S16x128x128_0_0_0 inb_S16x128_S1x32_12_0
      slices_S1024x2048_o0_1536_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 11 0 (by decide) (by decide) x0 x1 inb_S128x32x128_S32x32x128_0_0_0 inb_S16x128x128_S16x128x128_0_0_0 inb_S16x128_S1x32_11_0
      slices_S1024x2048_o0_1408_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 10 0 (by decide) (by decide) x0 x1 inb_S128x32x128_S32x32x128_0_0_0 inb_S16x128x128_S16x128x128_0_0_0 inb_S16x128_S1x32_10_0
      slices_S1024x2048_o0_1280_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 9 0 (by decide) (by decide) x0 x1 inb_S128x32x128_S32x32x128_0_0_0 inb_S16x128x128_S16x128x128_0_0_0 inb_S16x128_S1x32_9_0
      slices_S1024x2048_o0_1152_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 8 0 (by decide) (by decide) x0 x1 inb_S128x32x128_S32x32x128_0_0_0 inb_S16x128x128_S16x128x128_0_0_0 inb_S16x128_S1x32_8_0
      slices_S1024x2048_o0_1024_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 7 0 (by decide) (by decide) x0 x1 inb_S128x32x128_S32x32x128_0_0_0 inb_S16x128x128_S16x128x128_0_0_0 inb_S16x128_S1x32_7_0
      slices_S1024x2048_o0_896_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 6 0 (by decide) (by decide) x0 x1 inb_S128x32x128_S32x32x128_0_0_0 inb_S16x128x128_S16x128x128_0_0_0 inb_S16x128_S1x32_6_0
      slices_S1024x2048_o0_768_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 5 0 (by decide) (by decide) x0 x1 inb_S128x32x128_S32x32x128_0_0_0 inb_S16x128x128_S16x128x128_0_0_0 inb_S16x128_S1x32_5_0
      slices_S1024x2048_o0_640_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 4 0 (by decide) (by decide) x0 x1 inb_S128x32x128_S32x32x128_0_0_0 inb_S16x128x128_S16x128x128_0_0_0 inb_S16x128_S1x32_4_0
      slices_S1024x2048_o0_512_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 3 0 (by decide) (by decide) x0 x1 inb_S128x32x128_S32x32x128_0_0_0 inb_S16x128x128_S16x128x128_0_0_0 inb_S16x128_S1x32_3_0
      slices_S1024x2048_o0_384_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 2 0 (by decide) (by decide) x0 x1 inb_S128x32x128_S32x32x128_0_0_0 inb_S16x128x128_S16x128x128_0_0_0 inb_S16x128_S1x32_2_0
      slices_S1024x2048_o0_256_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 1 0 (by decide) (by decide) x0 x1 inb_S128x32x128_S32x32x128_0_0_0 inb_S16x128x128_S16x128x128_0_0_0 inb_S16x128_S1x32_1_0
      slices_S1024x2048_o0_128_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x,
    fun x => piece_eq 0 0 (by decide) (by decide) x0 x1 inb_S128x32x128_S32x32x128_0_0_0 inb_S16x128x128_S16x128x128_0_0_0 inb_S16x128_S1x32_0_0
      slices_S1024x2048_o0_0_S1024x128 shapeCasts_S32x32x128_S32x32x128 shapeCasts_S32x32x128_S1024x128 shapeCasts_S1024x128_S32x32x128
      reduces_S32x32x128_S32x32 shapeCasts_S32x32_S32x32x1 reduces_S32x32x1_S32x1 shapeCasts_S32x1_S32 shapeCasts_S32_S1x32 x⟩

end Cert.MaxSim

end
-- ==== Proof.Loss.lean ====
/-
  The loss both programs compute from the [128, 128] score array: the logits are exp(scale) times the scores, each row
  loses its maximum and the logarithm of the sum of its exponentials (a log-softmax along the row), the entry at column
  pos[r] of row r is picked (a negative index wrapped by 128, as the gather's index arithmetic does), and the loss is
  minus the mean of the 128 picked entries. Both programs apply this same chain of host operations to their score array,
  so it is named once here and never opened: the two results are equal as soon as the two score arrays are.
-/
import proofs.«109981_j25460566131136_2_alg».proof.Proof.RefRead

noncomputable section

namespace Cert.MaxSim

open Idealize.ShloMosaic Cert.ReferenceIdeal Cert.ReferenceIdeal.Gen

variable {F : FTy → Type} [FloatOps F]

/-- The host chain from the score array `sim`, the scale `a2` and the positive indices `a3` to the scalar loss. -/
def lossTail (sim : (⟨S128x128, .f32⟩ : BufTy).Contents (Elt F)) (a2 : (⟨S_, .f32⟩ : BufTy).Contents (Elt F))
    (a3 : (⟨S128, .i32⟩ : BufTy).Contents (Elt F)) : (⟨S_, .f32⟩ : BufTy).Contents (Elt F) :=
  have logits : (⟨S128x128, .f32⟩ : BufTy).Contents (Elt F) := mulf (broadcastInDim S128x128 ![] bcast_S_S128x128 (Host.exp a2)) sim
  have rowMax : (⟨S128, .f32⟩ : BufTy).Contents (Elt F) :=
    maximumf (broadcastInDim S128 ![] bcast_S_S128 (constant S_ .f32 0xFF800000#32))
      (Host.reduce FloatOps.maximumf logits (constant S_ .f32 0xFF800000#32) reducesTo_S128x128_S128_d1 h_S_)
  have shifted : (⟨S128x128, .f32⟩ : BufTy).Contents (Elt F) :=
    subf logits (broadcastInDim S128x128 ![0, 1] bcast_S128x1_S128x128_0_1 (broadcastInDim S128x1 ![0] bcast_S128_S128x1_0 rowMax))
  have logp : (⟨S128x128, .f32⟩ : BufTy).Contents (Elt F) :=
    subf shifted (broadcastInDim S128x128 ![0, 1] bcast_S128x1_S128x128_0_1 (Host.log (broadcastInDim S128x1 ![0] bcast_S128_S128x1_0
      (Host.reduceAdd (Host.exp shifted) (constant S_ .f32 0x00000000#32) reducesTo_S128x128_S128_d1 h_S_))))
  have rows : (⟨S128, .i32⟩ : BufTy).Contents (Elt F) :=
    select (cmpi .slt (iotaInDim S128 32 0) (broadcastInDim S128 ![] bcast_S_S128 (constantI S_ 32 0#32)))
      (addi (iotaInDim S128 32 0) (broadcastInDim S128 ![] bcast_S_S128 (constantI S_ 32 128#32))) (iotaInDim S128 32 0)
  have cols : (⟨S128, .i32⟩ : BufTy).Contents (Elt F) :=
    select (cmpi .slt a3 (broadcastInDim S128 ![] bcast_S_S128 (constantI S_ 32 0#32)))
      (addi a3 (broadcastInDim S128 ![] bcast_S_S128 (constantI S_ 32 128#32))) a3
  have picked : (⟨S128, .f32⟩ : BufTy).Contents (Elt F) :=
    Host.gather gather_S128x128_S128x2_S128_n_01_n_n_01_1_11 logp
      (concatenate S128x2 1 [⟨S128x1, (broadcastInDim S128x1 ![0] bcast_S128_S128x1_0 rows)⟩, ⟨S128x1, (broadcastInDim S128x1 ![0] bcast_S128_S128x1_0 cols)⟩]
        concatenates_S128x1_S128x1_S128x2_d1)
  Host.negf (Host.divf (Host.reduceAdd picked (constant S_ .f32 0x00000000#32) reducesTo_S128_S_d0 h_S_) (constant S_ .f32 0x43000000#32))

/-- The reference's result is the chain applied to its score array. -/
theorem ref_result (x0 : (⟨S128x32x128, .f32⟩ : BufTy).Contents (Elt F)) (x1 : (⟨S128x128x128, .f32⟩ : BufTy).Contents (Elt F))
    (x2 : (⟨S_, .f32⟩ : BufTy).Contents (Elt F)) (x3 : (⟨S128, .i32⟩ : BufTy).Contents (Elt F)) :
    ReadP.val_main_v35 (F := F) x0 x1 x2 x3 = lossTail (ReadP.val_main_v13 (F := F) x0 x1) x2 x3 := rfl

end Cert.MaxSim

end
-- ==== Proof.KernelValue.lean ====
/-
  The idealized kernel program's run, read as a value.

  The region runs the body at 8 grid points; point `t` gets the whole (already normalized) query array and documents
  `16 * t … 16 * t + 15` of the document array, and writes rows `16 * t … 16 * t + 15` of a [128, 128] array. By what the
  body leaves in a block (`blockSim`), row `y` of that array holds at column `x` the MaxSim score of query `x` against
  document `y` of the whole array; the 8 blocks of 16 rows cover the 128 rows. After the region the host transposes the
  array and applies the loss chain (`lossTail`) to it.
-/
import proofs.«109981_j25460566131136_2_alg».proof.Proof.Gen.KernelIdeal.Frame
import proofs.«109981_j25460566131136_2_alg».proof.Proof.Block
import proofs.«109981_j25460566131136_2_alg».proof.Proof.Loss
import Idealize.ShloMosaic.Lib.Pipeline.Value

noncomputable section

namespace Cert.MaxSim

open Idealize.ShloMosaic Idealize.ShloMosaic.TcCoe Idealize.ShloMosaic.ValueIdx Idealize.SL.Sem
open Idealize.ShloMosaic.Pipeline (Dat)
open Cert.KernelIdeal Cert.KernelIdeal.Gen

/-- The score array the region leaves, as a function of the query array `L` and the document array `D`: at (y, x) the
    score of query `x` against document `y`. -/
def simT (L : (⟨3, ![128, 32, 128]⟩ : Shape).Idx → EReal) (D : (⟨3, ![128, 128, 128]⟩ : Shape).Idx → EReal) :
    (⟨2, ![128, 128]⟩ : Shape).Idx → EReal :=
  fun i => simAt L D ⟨(i 1).val, (i 1).isLt⟩ ⟨(i 0).val, (i 0).isLt⟩

theorem simT_at (L : (⟨3, ![128, 32, 128]⟩ : Shape).Idx → EReal) (D : (⟨3, ![128, 128, 128]⟩ : Shape).Idx → EReal)
    (i : (⟨2, ![128, 128]⟩ : Shape).Idx) (y x : Fin 128) (h0 : (i 0).val = y.val) (h1 : (i 1).val = x.val) :
    simT L D i = simAt L D x y := by
  have e0 : (⟨(i 0).val, (i 0).isLt⟩ : Fin 128) = y := Fin.ext h0
  have e1 : (⟨(i 1).val, (i 1).isLt⟩ : Fin 128) = x := Fin.ext h1
  unfold simT
  rw [e0, e1]

/-- A block of 16 documents cut out of the array at rows `16 * T …`, against the same queries, scores as the array does. -/
theorem simAt_block (L : (⟨3, ![128, 32, 128]⟩ : Shape).Idx → EReal) (D : (⟨3, ![128, 128, 128]⟩ : Shape).Idx → EReal)
    (x0 : (⟨3, ![128, 32, 128]⟩ : Shape).Idx → EReal) (x1 : (⟨3, ![16, 128, 128]⟩ : Shape).Idx → EReal)
    (h0 : ∀ i, x0 i = L i) (T : ℕ) (hT : T < 8)
    (h1 : ∀ (yy : Fin 16) (j k : Fin 128), x1 (ix3 yy j k) = D (ix3 (⟨16 * T + yy.val, by have := yy.isLt; omega⟩ : Fin 128) j k))
    (x : Fin 128) (yy : Fin 16) :
    simAt x0 x1 x yy = simAt L D x (⟨16 * T + yy.val, by have := yy.isLt; omega⟩ : Fin 128) := by
  have e : x0 = L := funext h0
  subst e
  exact simAt_congr x0 x1 D x yy _ (h1 yy)

variable (m : (ℓ : Loc nD τ sig) → Buf (Elt Ideal) ℓ) (ρ : Dev nD → PrngReg)

/-! ## The windows' blocks -/

/-- The printed index maps over the grid: the queries' window stays at block 0, the documents' and the output's windows
    are at block `t` of their first axis. -/
theorem idx_facts : ∀ t : Fin cfg0.N, win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 ∧ t.val < 8 :=
  (by decide +kernel : ∀ t : Fin grid0.N, _)

/-- The queries' block at any point is the whole array as the region finds it. -/
theorem iblk0_apply (c : Dev nD) (t : Fin cfg0.N) (x : S128x32x128.Idx) :
    (iblk m c 0 t : Vec Ideal S128x32x128 .bf16) x = (V m c main_v5 : S128x32x128.Idx → Elt Ideal .bf16) x := by
  obtain ⟨e0, e1, e2, -⟩ := idx_facts t
  unfold iblk
  rw [View.read_apply]
  show (V m c main_v5 : S128x32x128.Idx → Elt Ideal .bf16) _ = (V m c main_v5 : S128x32x128.Idx → Elt Ideal .bf16) _
  refine congrArg (V m c main_v5 : S128x32x128.Idx → Elt Ideal .bf16) (funext fun a => Fin.ext ?_)
  match a with
  | ⟨0, _⟩ => show win0_0.index t 0 * 128 + 1 * (x 0).val = (x 0).val; rw [e0]; omega
  | ⟨1, _⟩ => show win0_0.index t 1 * 32 + 1 * (x 1).val = (x 1).val; rw [e1]; omega
  | ⟨2, _⟩ => show win0_0.index t 2 * 128 + 1 * (x 2).val = (x 2).val; rw [e2]; omega

/-- The documents' block at point `t` is documents `16 * t …` of the array. -/
theorem iblk1_apply (c : Dev nD) (t : Fin cfg0.N) (ht : t.val < 8) (yy : Fin 16) (j k : Fin 128) :
    (iblk m c 1 t : Vec Ideal S16x128x128 .f32) (ix3 yy j k)
      = (V m c main_arg1 : S128x128x128.Idx → Elt Ideal .f32) (ix3 (⟨16 * t.val + yy.val, by have := yy.isLt; omega⟩ : Fin 128) j k) := by
  obtain ⟨-, -, -, e3, e4, e5, -⟩ := idx_facts t
  unfold iblk
  rw [View.read_apply]
  show (V m c main_arg1 : S128x128x128.Idx → Elt Ideal .f32) _ = (V m c main_arg1 : S128x128x128.Idx → Elt Ideal .f32) _
  refine congrArg (V m c main_arg1 : S128x128x128.Idx → Elt Ideal .f32) (funext fun a => Fin.ext ?_)
  match a with
  | ⟨0, _⟩ => show win0_1.index t 0 * 16 + 1 * yy.val = 16 * t.val + yy.val; rw [e3]; omega
  | ⟨1, _⟩ => show win0_1.index t 1 * 128 + 1 * j.val = j.val; rw [e4]; omega
  | ⟨2, _⟩ => show win0_1.index t 2 * 128 + 1 * k.val = k.val; rw [e5]; omega

/-! ## From the blocks to the array -/

/-- What point `t` writes back is block `t` of the score array of the two arrays as the region finds them. -/
theorem flushed_eq (c : Dev nD) (t : Fin cfg0.N) :
    (dats m 0 c).flushed 2 t = ((cfg0.win 2).blk t).view.read (Elt Ideal)
      (simT (V m c main_v5 : S128x32x128.Idx → Elt Ideal .bf16) (V m c main_arg1 : S128x128x128.Idx → Elt Ideal .f32)) := by
  obtain ⟨-, -, -, -, -, -, e6, e7, ht⟩ := idx_facts t
  show (cfg0.win 2).cut (grid0.coords t) ((dats m 0 c).after 2 t) = _
  rw [after0_2, out_eq]
  funext j
  obtain ⟨yy, x, rfl⟩ : ∃ (yy : Fin 16) (x : Fin 128), j = ix2 yy x := ⟨j 0, j 1, eq_ix2 j⟩
  show blockSim (iblk m c 0 t) (iblk m c 1 t) (ix2 yy x)
    = simT (V m c main_v5 : S128x32x128.Idx → Elt Ideal .bf16) (V m c main_arg1 : S128x128x128.Idx → Elt Ideal .f32)
        (((cfg0.win 2).blk t).view.emb (ix2 yy x))
  rw [blockSim_at (iblk m c 0 t) (iblk m c 1 t) (ix2 yy x) yy x rfl rfl,
    simT_at _ _ (((cfg0.win 2).blk t).view.emb (ix2 yy x)) (⟨16 * t.val + yy.val, by have := yy.isLt; omega⟩ : Fin 128) x
      (by show win0_2.index t 0 * 16 + 1 * yy.val = 16 * t.val + yy.val; rw [e6]; omega)
      (by show win0_2.index t 1 * 128 + 1 * x.val = x.val; rw [e7]; omega)]
  exact simAt_block (V m c main_v5 : S128x32x128.Idx → Elt Ideal .bf16) (V m c main_arg1 : S128x128x128.Idx → Elt Ideal .f32)
    (iblk m c 0 t) (iblk m c 1 t) (iblk0_apply m c t) t.val ht (iblk1_apply m c t ht) x yy

/-- An index of the array is in point `t`'s block iff each coordinate is in the block's range on its axis. -/
theorem mem_blk (t : Fin cfg0.N) (i : S128x128.Idx) :
    i ∈ ((cfg0.win 2).blk t).view.set
      ↔ ∀ a : Fin 2, win0_2.index t a * S16x128.size a ≤ (i a).val ∧ (i a).val < win0_2.index t a * S16x128.size a + S16x128.size a := by
  show i ∈ ((View.whole main_v6).slice (win0_2.rect t)).set ↔ _
  rw [View.set_slice_whole, Rect.mem_set_unit]
  exact Iff.rfl

/-- Row `r` of the array is in the block of point `r / 16`. -/
theorem covered (i : S128x128.Idx) : ∃ t : Fin cfg0.N, (cfg0.win 2).flush t = true ∧ i ∈ ((cfg0.win 2).blk t).view.set := by
  have hi0 : (i 0).val < 128 := (i 0).isLt
  have hi1 : (i 1).val < 128 := (i 1).isLt
  have hN : cfg0.N = 8 := N_0
  obtain ⟨t, htv⟩ : ∃ t : Fin cfg0.N, t.val = (i 0).val / 16 := ⟨⟨(i 0).val / 16, by rw [hN]; omega⟩, rfl⟩
  obtain ⟨-, -, -, -, -, -, e6, e7, -⟩ := idx_facts t
  refine ⟨t, flush0_2 t, ?_⟩
  rw [mem_blk]
  intro a
  match a with
  | ⟨0, _⟩ =>
    show win0_2.index t 0 * 16 ≤ (i 0).val ∧ (i 0).val < win0_2.index t 0 * 16 + 16
    rw [e6, htv]; omega
  | ⟨1, _⟩ =>
    show win0_2.index t 1 * 128 ≤ (i 1).val ∧ (i 1).val < win0_2.index t 1 * 128 + 128
    rw [e7]; omega

/-- The array after the region: the score array of the normalized queries and the documents. -/
theorem final (c : Dev nD) :
    (dats m 0 c).arrAt 2 cfg0.N
      = simT (V m c main_v5 : S128x32x128.Idx → Elt Ideal .bf16) (m ((c : Thread nD τ).loc main_arg1) : S128x128x128.Idx → Elt Ideal .f32) := by
  rw [← V_main_arg1 m c]
  exact (dats m 0 c).arrAt_eq_of_cover 2 _ (fun t _ => flushed_eq m c t) covered

/-! ## The host operations after the region -/

set_option maxRecDepth 65536 in
set_option maxHeartbeats 4000000 in
/-- The 43 host operations after the region, from any contents `W` of the buffers at their start: the result buffer ends
    at the loss chain of the transposed score buffer, the scale and the indices. -/
theorem tail_after (W : Valuation τ sig (Elt Ideal)) :
    StableHlo.after (List.flatten [hostOps1, hostOps1_1, hostOps1_2]) W (Proc.devRef .tc main_v29)
      = lossTail (F := Ideal) (transpose S128x128 [1, 0] (W (Proc.devRef .tc main_v6)) transposes_S128x128_S128x128_1_0)
          (W (Proc.devRef .tc main_arg2)) (W (Proc.devRef .tc main_arg3)) := by
  simp only [hostOps1, hostOps1_1, hostOps1_2, List.flatten_cons, List.flatten_nil, List.append_nil, List.cons_append, List.nil_append]
  after_results_simp
  rfl

/-- The kernel program's result as a value. -/
def kernelLoss (c : Dev nD) : (⟨Cert.ReferenceIdeal.S_, .f32⟩ : BufTy).Contents (Elt Ideal) :=
  lossTail (F := Ideal)
    (transpose S128x128 [1, 0] (simT (V m c main_v5 : S128x32x128.Idx → Elt Ideal .bf16)
      (m ((c : Thread nD τ).loc main_arg1) : S128x128x128.Idx → Elt Ideal .f32)) transposes_S128x128_S128x128_1_0)
    (m ((c : Thread nD τ).loc main_arg2)) (m ((c : Thread nD τ).loc main_arg3))

theorem result_eq (c : Dev nD) :
    Pipeline.afterTail₀ cfgs (dats m) 0 (V0 m) [hostOps1, hostOps1_1, hostOps1_2] c main_v29 = kernelLoss m c := by
  have e6 : Pipeline.withArrays spec0 c (V0 m c) (fun w => (dats m 0 c).arrAt w cfg0.N) (Proc.devRef .tc main_v6)
      = simT (V m c main_v5 : S128x32x128.Idx → Elt Ideal .bf16) (m ((c : Thread nD τ).loc main_arg1) : S128x128x128.Idx → Elt Ideal .f32) :=
    (Pipeline.withArrays_arr spec0 launch0.win.arr_inj c _ _ 2).trans (final m c)
  have e2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  show StableHlo.after (List.flatten [hostOps1, hostOps1_1, hostOps1_2])
    (Pipeline.withArrays spec0 c (V0 m c) fun w => (dats m 0 c).arrAt w cfg0.N) (Proc.devRef .tc main_v29) = _
  rw [tail_after, e6, e2, e3]
  rfl

/-! ## The run -/

/-- Every weakly fair execution of the idealized kernel program terminates with the result buffer at `kernelLoss` and the
    arguments unchanged. -/
theorem run : θ_run defs (onTc (τ := τ) (main (F := Ideal))) ⟨m, fun _ => 0, ρ⟩ fun r => ∀ c : Dev nD,
      r.2.mem ((c.tc : Thread nD τ).loc main_v29) = kernelLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.MaxSim

end
-- ==== Proof.RefSide.lean ====
/-
  The reference's [128, 128] score array, read at a pair.

  The reference normalizes both token arrays, multiplies document tokens by query tokens over the features (a product
  indexed document, document token, query, query token), transposes it to query, document, query token, document token,
  takes the maximum over the document tokens from -∞ and adds over the query tokens from 0. At (x, y) this is the MaxSim
  score (`simAt`) of query `x` of the normalized query array against document `y`; the two factors of each product stand in
  the other order, which a product of extended reals does not see.
-/
import proofs.«109981_j25460566131136_2_alg».proof.Proof.RefRead
import proofs.«109981_j25460566131136_2_alg».proof.Proof.Spec
import Idealize.ShloMosaic.PureOps.Reduce

noncomputable section

namespace Cert.MaxSim

open Idealize.ShloMosaic Idealize.ShloMosaic.ValueIdx Cert.ReferenceIdeal Cert.ReferenceIdeal.Gen Cert.ReferenceIdeal.ReadP

/-- The reference's normalized document array at (y, j, k) is the normalized token's feature. -/
theorem refDoc_apply (x1 : (⟨S128x128x128, .f32⟩ : BufTy).Contents (Elt Ideal)) (y j k : Fin 128) :
    val_main_v9 (F := Ideal) x1 (ix3 y j k) = unitTok x1 y j k := by
  have ek : ∀ k' : Fin 128, idx_main_call1_v1 (idx_main_call1_v2 (idx_main_v8 (ix3 y j k))) k' = ix3 y j k' :=
    fun k' => funext fun a => Fin.ext (by match a with | ⟨0, _⟩ => rfl | ⟨1, _⟩ => rfl | ⟨2, _⟩ => rfl)
  rw [val_main_v9_apply, val_main_v8_apply, val_main_v7_apply, val_main_v6_apply, val_main_cst_0_apply, val_main_v5_apply,
    val_main_call1_v2_apply, val_main_call1_v1_apply, val_main_call1_cst_apply]
  simp only [val_main_call1_v0_apply, ek, Ideal.hostDivf_def, Ideal.maximumf_def, Ideal.hostUnary_sqrt_def, Ideal.mulf_def,
    Ideal.ofBits_def, Ideal.ofBits_zero_f32, zero_add]
  rfl

/-- The transposed product at (x, y, i, j): query token (x, i) against the normalized document token (y, j). -/
theorem refProd_apply (x0 : (⟨S128x32x128, .f32⟩ : BufTy).Contents (Elt Ideal)) (x1 : (⟨S128x128x128, .f32⟩ : BufTy).Contents (Elt Ideal))
    (x y : Fin 128) (i : Fin 32) (j : Fin 128) :
    val_main_v11 (F := Ideal) x0 x1 (ix4 x y i j) = ∑ k : Fin 128, val_main_v4 (F := Ideal) x0 (ix3 x i k) * unitTok x1 y j k := by
  rw [val_main_v11_apply, val_main_v10_apply]
  refine Finset.sum_congr rfl fun k _ => ?_
  have el : lidx_main_v10 (idx_main_v11 (ix4 x y i j)) k = ix3 y j k :=
    funext fun a => Fin.ext (by match a with | ⟨0, _⟩ => rfl | ⟨1, _⟩ => rfl | ⟨2, _⟩ => rfl)
  have er : ridx_main_v10 (idx_main_v11 (ix4 x y i j)) k = ix3 x i k :=
    funext fun a => Fin.ext (by match a with | ⟨0, _⟩ => rfl | ⟨1, _⟩ => rfl | ⟨2, _⟩ => rfl)
  rw [el, er, refDoc_apply, mul_comm]

/-- The maximum over the document's tokens at (x, y, i). -/
theorem refMax_apply (x0 : (⟨S128x32x128, .f32⟩ : BufTy).Contents (Elt Ideal)) (x1 : (⟨S128x128x128, .f32⟩ : BufTy).Contents (Elt Ideal))
    (x y : Fin 128) (i : Fin 32) :
    val_main_v12 (F := Ideal) x0 x1 (ix3 x y i)
      = maxOver fun j => ∑ k : Fin 128, val_main_v4 (F := Ideal) x0 (ix3 x i k) * unitTok x1 y j k := by
  have hr : S128x128x32x128.Reduces [3] S128x128x32 :=
    ⟨reducesTo_S128x128x32x128_S128x128x32_d3.1, Nat.succ_pos _, reducesTo_S128x128x32x128_S128x128x32_d3.2⟩
  unfold val_main_v12
  refine (Host.reduce_eq_fold_single (u := S_) (FloatOps.maximumf (F := Ideal) (φ := .f32))
    (val_main_v11 (F := Ideal) x0 x1 : S128x128x32x128.Idx → Ideal .f32) (val_main_cst_1 (F := Ideal) : S_.Idx → Ideal .f32)
    reducesTo_S128x128x32x128_S128x128x32_d3 hr h_S_ (ix3 x y i)).trans ?_
  refine congrArg (fun f => Finset.fold max (Ideal.ofBits .f32 0xFF800000#32) f (Finset.univ : Finset (Fin 128))) (funext fun j => ?_)
  have e : hr.lift (ix3 x y i) j = ix4 x y i (⟨j.val, j.isLt⟩ : Fin 128) :=
    funext fun a => Fin.ext (by match a with | ⟨0, _⟩ => rfl | ⟨1, _⟩ => rfl | ⟨2, _⟩ => rfl | ⟨3, _⟩ => rfl)
  show val_main_v11 (F := Ideal) x0 x1 (hr.lift (ix3 x y i) j) = _
  rw [e]
  exact refProd_apply x0 x1 x y i _

/-- The reference's score array at (x, y). -/
theorem refSim_apply (x0 : (⟨S128x32x128, .f32⟩ : BufTy).Contents (Elt Ideal)) (x1 : (⟨S128x128x128, .f32⟩ : BufTy).Contents (Elt Ideal))
    (x y : Fin 128) :
    val_main_v13 (F := Ideal) x0 x1 (ix2 x y) = simAt (val_main_v4 (F := Ideal) x0) x1 x y := by
  rw [val_main_v13_apply, val_main_cst_2_apply]
  show Ideal.ofBits .f32 0x00000000#32 + _ = _
  rw [Ideal.ofBits_zero_f32, zero_add]
  refine Finset.sum_congr rfl fun i _ => ?_
  have e : idx_main_v13 (ix2 x y) i = ix3 x y i :=
    funext fun a => Fin.ext (by match a with | ⟨0, _⟩ => rfl | ⟨1, _⟩ => rfl | ⟨2, _⟩ => rfl)
  rw [e]
  exact refMax_apply x0 x1 x y i

end Cert.MaxSim

end
-- ==== Proof.Bridge.lean ====
/-
  The two score arrays are one array.

  The kernel program normalizes the query array on the host, before the region, by the same operations as the reference
  (followed by a change of float format, the identity on extended reals); the region's [128, 128] array holds at (y, x) the
  score of query `x` against document `y`, and the host transposes it. The reference's array holds at (x, y) the same score.
  So the transposed kernel array is the reference's array, and the loss chain takes both to one number.
-/
import proofs.«109981_j25460566131136_2_alg».proof.Proof.KernelValue
import proofs.«109981_j25460566131136_2_alg».proof.Proof.RefSide

noncomputable section

namespace Cert.MaxSim

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)

/-- The query array the region finds is the reference's normalized query array of the same argument. -/
theorem queries_eq (c : Dev Cert.KernelIdeal.nD) :
    (Cert.KernelIdeal.Gen.V m c Cert.KernelIdeal.main_v5 : Cert.KernelIdeal.S128x32x128.Idx → Elt Ideal .bf16)
      = Cert.ReferenceIdeal.ReadP.val_main_v4 (F := Ideal) (m ((c : Thread Cert.KernelIdeal.nD Cert.KernelIdeal.τ).loc Cert.KernelIdeal.main_arg0)) := by
  dsimp only [Cert.KernelIdeal.Gen.V, Cert.KernelIdeal.Gen.V0]
  simp only [Cert.KernelIdeal.Gen.hostOps0, Cert.KernelIdeal.Gen.hostOps0_1, List.flatten_cons, List.flatten_nil, List.append_nil,
    List.cons_append, List.nil_append]
  after_results
  rfl

/-- The kernel's score array, transposed, is the reference's score array of the same arguments. -/
theorem scores_eq (x0 : (⟨Cert.ReferenceIdeal.S128x32x128, .f32⟩ : BufTy).Contents (Elt Ideal))
    (x1 : (⟨Cert.ReferenceIdeal.S128x128x128, .f32⟩ : BufTy).Contents (Elt Ideal))
    (h : Cert.KernelIdeal.S128x128.Transposes [1, 0] Cert.KernelIdeal.S128x128) :
    transpose Cert.KernelIdeal.S128x128 [1, 0] (simT (Cert.ReferenceIdeal.ReadP.val_main_v4 (F := Ideal) x0) x1) h
      = Cert.ReferenceIdeal.ReadP.val_main_v13 (F := Ideal) x0 x1 := by
  funext i
  obtain ⟨x, y, rfl⟩ : ∃ (x y : Fin 128), i = ix2 x y := ⟨i 0, i 1, eq_ix2 i⟩
  rw [refSim_apply x0 x1 x y]
  refine (transpose_ix2_apply _ h x y).trans ?_
  exact simT_at _ _ (ix2 y x) y x rfl rfl

/-- The kernel program's result is the loss chain of the reference's score array of the kernel's arguments. -/
theorem kernelLoss_eq (c : Dev Cert.KernelIdeal.nD) :
    kernelLoss m c
      = lossTail (F := Ideal) (Cert.ReferenceIdeal.ReadP.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)))
        (m ((c : Thread Cert.KernelIdeal.nD Cert.KernelIdeal.τ).loc Cert.KernelIdeal.main_arg2))
        (m ((c : Thread Cert.KernelIdeal.nD Cert.KernelIdeal.τ).loc Cert.KernelIdeal.main_arg3)) := by
  unfold kernelLoss
  rw [queries_eq m c, scores_eq]

end Cert.MaxSim

end
-- ==== Proof.lean ====
/-
  The certificate of a MaxSim contrastive loss: a Pallas kernel that scores every query against every document
  (normalize the document tokens, one matrix product per chunk of 32 queries against a block of 16 documents, the maximum
  over a document's tokens, the sum over a query's tokens) inside a jax program that normalizes the queries before it and
  takes a log-softmax loss after it, against the plain jnp reference.

  On the extended reals both programs compute, for query x and document y,
      sim (x, y) = ∑ b, max_j ∑ k, unit q (x, b, k) * unit d (y, j, k)
  and then the same chain of host operations on the [128, 128] array of these numbers. The kernel's sums and maxima run
  over the same index sets in the same order as the reference's; only the two factors of each product are swapped, so no
  finiteness of the inputs is used. The three frames are the generated frame certificates and the reference's generated
  run; the ideal pass rewrote nothing, so `preserves` asks nothing.
-/
import proofs.«109981_j25460566131136_2_alg».proof.Defs
import proofs.«109981_j25460566131136_2_alg».proof.Proof.Gen.Kernel
import proofs.«109981_j25460566131136_2_alg».proof.Proof.Gen.Kernel.Skeleton
import proofs.«109981_j25460566131136_2_alg».proof.Proof.Gen.Kernel.Launch
import proofs.«109981_j25460566131136_2_alg».proof.Proof.Gen.Kernel.Points
import proofs.«109981_j25460566131136_2_alg».proof.Proof.Gen.Kernel.Frame
import proofs.«109981_j25460566131136_2_alg».proof.Proof.Gen.KernelIdeal
import proofs.«109981_j25460566131136_2_alg».proof.Proof.Gen.KernelIdeal.Skeleton
import proofs.«109981_j25460566131136_2_alg».proof.Proof.Gen.KernelIdeal.Launch
import proofs.«109981_j25460566131136_2_alg».proof.Proof.Gen.KernelIdeal.Points
import proofs.«109981_j25460566131136_2_alg».proof.Proof.Gen.KernelIdeal.Frame
import proofs.«109981_j25460566131136_2_alg».proof.Proof.Gen.ReferenceIdeal
import proofs.«109981_j25460566131136_2_alg».proof.Proof.RefRun
import proofs.«109981_j25460566131136_2_alg».proof.Proof.RefRead
import proofs.«109981_j25460566131136_2_alg».proof.Proof.Gen.Pre_finite_inputs
import proofs.«109981_j25460566131136_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel program. -/
theorem preserves : Cert.preserves_Kernel_KernelIdeal := trivial

/-- Both runs end with the loss chain applied to one and the same score array of the agreeing arguments. -/
theorem algebraic : Cert.algebraic_KernelIdeal_ReferenceIdeal := by
  intro m ρ m' ρ' _ hagree
  refine ⟨fun c => Cert.MaxSim.kernelLoss m c, Cert.MaxSim.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v35_eq, Cert.MaxSim.ref_result, (hagree c).1, (hagree c).2.1, (hagree c).2.2.1, (hagree c).2.2.2]
  exact (Cert.MaxSim.kernelLoss_eq m c).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
